-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x3 : Shape := ⟨2, ![8000000, 3]⟩
abbrev S8000000x4 : Shape := ⟨2, ![8000000, 4]⟩
abbrev S_ : Shape := ⟨0, ![]⟩

class Facts : Prop where
  bcast_S_S8000000x3 : S_.BroadcastsInDim S8000000x3 (![] : Fin 0 → Fin S8000000x3.rank)
  reducesTo_S8000000x3_S_d0_1 : S8000000x3.ReducesTo [0, 1] S_
  h_S_ : 0 < S_.numel
  bcast_S_S8000000x4 : S_.BroadcastsInDim S8000000x4 (![] : Fin 0 → Fin S8000000x4.rank)
  reducesTo_S8000000x4_S_d0_1 : S8000000x4.ReducesTo [0, 1] S_

variable [Facts]

def fn {F : FTy → Type} [FloatOps F] (main_arg0 : FVec F S8000000x3 .f32) (main_arg1 : FVec F S8000000x4 .f32) : IVec S_ 1 :=
  let main_v0 : FVec F S8000000x3 .f32 := Host.absf main_arg0
  let main_cst : FVec F S_ .f32 := constant S_ .f32 0x7F800000#32
  let main_v1 : FVec F S8000000x3 .f32 := broadcastInDim S8000000x3 ![] bcast_S_S8000000x3 main_cst
  let main_v2 : IVec S8000000x3 1 := cmpf .olt main_v0 main_v1
  let main_c : IVec S_ 1 := constantI S_ 1 1#1
  let main_v3 : IVec S_ 1 := (fun x v => Host.reduce IntOp.andi x v reducesTo_S8000000x3_S_d0_1 h_S_) main_v2 main_c
  let main_v4 : FVec F S8000000x4 .f32 := Host.absf main_arg1
  let main_cst_0 : FVec F S_ .f32 := constant S_ .f32 0x7F800000#32
  let main_v5 : FVec F S8000000x4 .f32 := broadcastInDim S8000000x4 ![] bcast_S_S8000000x4 main_cst_0
  let main_v6 : IVec S8000000x4 1 := cmpf .olt main_v4 main_v5
  let main_c_1 : IVec S_ 1 := constantI S_ 1 1#1
  let main_v7 : IVec S_ 1 := (fun x v => Host.reduce IntOp.andi x v reducesTo_S8000000x4_S_d0_1 h_S_) main_v6 main_c_1
  let main_v8 : IVec S_ 1 := andi main_v3 main_v7
  main_v8
-- ==== Kernel.lean ====
abbrev S8000000x3 : Shape := ⟨2, ![8000000, 3]⟩
abbrev S8000000x4 : Shape := ⟨2, ![8000000, 4]⟩
abbrev S8000000x7 : Shape := ⟨2, ![8000000, 7]⟩
abbrev S7x8000000 : Shape := ⟨2, ![7, 8000000]⟩
abbrev S6x8000000 : Shape := ⟨2, ![6, 8000000]⟩
abbrev S7x80000 : Shape := ⟨2, ![7, 80000]⟩
abbrev S6x80000 : Shape := ⟨2, ![6, 80000]⟩
abbrev S3x80000 : Shape := ⟨2, ![3, 80000]⟩
abbrev S4x80000 : Shape := ⟨2, ![4, 80000]⟩
abbrev S80000 : Shape := ⟨1, ![80000]⟩
abbrev S1x80000 : Shape := ⟨2, ![1, 80000]⟩
abbrev S8000000x6 : Shape := ⟨2, ![8000000, 6]⟩
abbrev S8000000x1 : Shape := ⟨2, ![8000000, 1]⟩
abbrev S8000000 : Shape := ⟨1, ![8000000]⟩
abbrev S8000000x9 : Shape := ⟨2, ![8000000, 9]⟩
abbrev S8000000x3x3 : Shape := ⟨3, ![8000000, 3, 3]⟩

abbrev nBuf : Space → Nat
  | .hbm => 29
  | .vmem => 4
  | .smem => 0
  | _ => 0

abbrev bufTy : (tb : Table) → Fin (tcTables nBuf tb) → BufTy
  | .hbm, ⟨0, _⟩ => ⟨S8000000x3, .f32⟩
  | .hbm, ⟨1, _⟩ => ⟨S8000000x4, .f32⟩
  | .hbm, ⟨2, _⟩ => ⟨S8000000x7, .f32⟩
  | .hbm, ⟨3, _⟩ => ⟨S7x8000000, .f32⟩
  | .hbm, ⟨4, _⟩ => ⟨S6x8000000, .f32⟩
  | .hbm, ⟨5, _⟩ => ⟨S8000000x6, .f32⟩
  | .hbm, ⟨6, _⟩ => ⟨S8000000x1, .f32⟩
  | .hbm, ⟨7, _⟩ => ⟨S8000000, .f32⟩
  | .hbm, ⟨8, _⟩ => ⟨S8000000x1, .f32⟩
  | .hbm, ⟨9, _⟩ => ⟨S8000000, .f32⟩
  | .hbm, ⟨10, _⟩ => ⟨S8000000x1, .f32⟩
  | .hbm, ⟨11, _⟩ => ⟨S8000000, .f32⟩
  | .hbm, ⟨12, _⟩ => ⟨S8000000x1, .f32⟩
  | .hbm, ⟨13, _⟩ => ⟨S8000000, .f32⟩
  | .hbm, ⟨14, _⟩ => ⟨S8000000x1, .f32⟩
  | .hbm, ⟨15, _⟩ => ⟨S8000000, .f32⟩
  | .hbm, ⟨16, _⟩ => ⟨S8000000x1, .f32⟩
  | .hbm, ⟨17, _⟩ => ⟨S8000000, .f32⟩
  | .hbm, ⟨18, _⟩ => ⟨S8000000x1, .f32⟩
  | .hbm, ⟨19, _⟩ => ⟨S8000000x1, .f32⟩
  | .hbm, ⟨20, _⟩ => ⟨S8000000x1, .f32⟩
  | .hbm, ⟨21, _⟩ => ⟨S8000000x1, .f32⟩
  | .hbm, ⟨22, _⟩ => ⟨S8000000x1, .f32⟩
  | .hbm, ⟨23, _⟩ => ⟨S8000000x1, .f32⟩
  | .hbm, ⟨24, _⟩ => ⟨S8000000x1, .f32⟩
  | .hbm, ⟨25, _⟩ => ⟨S8000000x1, .f32⟩
  | .hbm, ⟨26, _⟩ => ⟨S8000000x1, .f32⟩
  | .hbm, ⟨27, _⟩ => ⟨S8000000x9, .f32⟩
  | .hbm, ⟨28, _⟩ => ⟨S8000000x3x3, .f32⟩
  | .local _ .vmem, ⟨0, _⟩ => ⟨S7x80000, .f32⟩
  | .local _ .vmem, ⟨1, _⟩ => ⟨S7x80000, .f32⟩
  | .local _ .vmem, ⟨2, _⟩ => ⟨S6x80000, .f32⟩
  | .local _ .vmem, ⟨3, _⟩ => ⟨S6x80000, .f32⟩
  | _, _ => ⟨S8000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S7x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x80000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  concatenates_S8000000x3_S8000000x4_S8000000x7_d1 : Shape.Concatenates [S8000000x3, S8000000x4] S8000000x7 1
  transposes_S8000000x7_S7x8000000_1_0 : S8000000x7.Transposes [1, 0] S7x8000000
  inb_S7x80000_S3x80000_0_0 : ∀ a, (![0, 0] : Fin 2 → Nat) a + S3x80000.size a ≤ S7x80000.size a
  h_S3x80000 : 0 < S3x80000.numel
  shapeCasts_S3x80000_S3x80000 : S3x80000.ShapeCasts S3x80000
  inb_S7x80000_S4x80000_3_0 : ∀ a, (![3, 0] : Fin 2 → Nat) a + S4x80000.size a ≤ S7x80000.size a
  h_S4x80000 : 0 < S4x80000.numel
  shapeCasts_S4x80000_S4x80000 : S4x80000.ShapeCasts S4x80000
  reduces_S4x80000_S80000 : S4x80000.Reduces [0] S80000
  shapeCasts_S80000_S1x80000 : S80000.ShapeCasts S1x80000
  broadcasts_S1x80000_S4x80000 : S1x80000.Broadcasts S4x80000
  slices_S4x80000_o0_0_S1x80000 : S4x80000.Slices ![0, 0] S1x80000
  slices_S4x80000_o1_0_S1x80000 : S4x80000.Slices ![1, 0] S1x80000
  slices_S4x80000_o2_0_S1x80000 : S4x80000.Slices ![2, 0] S1x80000
  slices_S4x80000_o3_0_S1x80000 : S4x80000.Slices ![3, 0] S1x80000
  slices_S3x80000_o0_0_S1x80000 : S3x80000.Slices ![0, 0] S1x80000
  slices_S3x80000_o1_0_S1x80000 : S3x80000.Slices ![1, 0] S1x80000
  slices_S3x80000_o2_0_S1x80000 : S3x80000.Slices ![2, 0] S1x80000
  inb_S6x80000_S1x80000_0_0 : ∀ a, (![0, 0] : Fin 2 → Nat) a + S1x80000.size a ≤ S6x80000.size a
  h_S1x80000 : 0 < S1x80000.numel
  inb_S6x80000_S1x80000_1_0 : ∀ a, (![1, 0] : Fin 2 → Nat) a + S1x80000.size a ≤ S6x80000.size a
  inb_S6x80000_S1x80000_2_0 : ∀ a, (![2, 0] : Fin 2 → Nat) a + S1x80000.size a ≤ S6x80000.size a
  inb_S6x80000_S1x80000_3_0 : ∀ a, (![3, 0] : Fin 2 → Nat) a + S1x80000.size a ≤ S6x80000.size a
  inb_S6x80000_S1x80000_4_0 : ∀ a, (![4, 0] : Fin 2 → Nat) a + S1x80000.size a ≤ S6x80000.size a
  inb_S6x80000_S1x80000_5_0 : ∀ a, (![5, 0] : Fin 2 → Nat) a + S1x80000.size a ≤ S6x80000.size a
  transposes_S6x8000000_S8000000x6_1_0 : S6x8000000.Transposes [1, 0] S8000000x6
  slices_S8000000x6_S8000000x1_0_0 : S8000000x6.Slices ![0, 0] S8000000x1
  shapeCasts_S8000000x1_S8000000 : S8000000x1.ShapeCasts S8000000
  slices_S8000000x6_S8000000x1_0_1 : S8000000x6.Slices ![0, 1] S8000000x1
  slices_S8000000x6_S8000000x1_0_2 : S8000000x6.Slices ![0, 2] S8000000x1
  slices_S8000000x6_S8000000x1_0_3 : S8000000x6.Slices ![0, 3] S8000000x1
  slices_S8000000x6_S8000000x1_0_4 : S8000000x6.Slices ![0, 4] S8000000x1
  slices_S8000000x6_S8000000x1_0_5 : S8000000x6.Slices ![0, 5] S8000000x1
  bcast_S8000000_S8000000x1_0 : S8000000.BroadcastsInDim S8000000x1 (![0] : Fin 1 → Fin S8000000x1.rank)
  concatenates_S8000000x1_S8000000x1_S8000000x1_S8000000x1_S8000000x1_S8000000x1_S8000000x1_S8000000x1_S8000000x1_S8000000x9_d1 : Shape.Concatenates [S8000000x1, S8000000x1, S8000000x1, S8000000x1, S8000000x1, S8000000x1, S8000000x1, S8000000x1, S8000000x1] S8000000x9 1
  shapeCasts_S8000000x9_S8000000x3x3 : S8000000x9.ShapeCasts S8000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x80000.size a ≤ S7x8000000.size a
  hwx0_0 : ∀ i : grid0.Coords, EltTy.bits .f32 = 32 ∨ (Rect.block (s := S7x8000000) S7x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x80000.size a ≤ S6x8000000.size a
  hwx0_1 : ∀ i : grid0.Coords, EltTy.bits .f32 = 32 ∨ (Rect.block (s := S6x8000000) S6x80000.size (cc0_transform_1 i) (hinb0_1 i)).WholeWords (EltTy.packing .f32)

variable [Facts₀]

abbrev win0_0 : Pipeline.Window sig grid0 :=
  Pipeline.Window.ofSpec (Memref.whole main_v1) S7x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S6x80000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8000000x3 : Shape := ⟨2, ![8000000, 3]⟩
abbrev S8000000x4 : Shape := ⟨2, ![8000000, 4]⟩
abbrev S_ : Shape := ⟨0, ![]⟩
abbrev S8000000 : Shape := ⟨1, ![8000000]⟩
abbrev S8000000x1 : Shape := ⟨2, ![8000000, 1]⟩
abbrev S8000000x9 : Shape := ⟨2, ![8000000, 9]⟩
abbrev S8000000x3x3 : Shape := ⟨3, ![8000000, 3, 3]⟩
abbrev S8000000x1x3 : Shape := ⟨3, ![8000000, 1, 3]⟩

abbrev nBuf : Space → Nat
  | .hbm => 127
  | .vmem => 0
  | .smem => 0
  | _ => 0

abbrev bufTy : (tb : Table) → Fin (tcTables nBuf tb) → BufTy
  | .hbm, ⟨0, _⟩ => ⟨S8000000x3, .f32⟩
  | .hbm, ⟨1, _⟩ => ⟨S8000000x4, .f32⟩
  | .hbm, ⟨2, _⟩ => ⟨S8000000x3, .f32⟩
  | .hbm, ⟨3, _⟩ => ⟨S8000000x4, .f32⟩
  | .hbm, ⟨4, _⟩ => ⟨S_, .f32⟩
  | .hbm, ⟨5, _⟩ => ⟨S8000000, .f32⟩
  | .hbm, ⟨6, _⟩ => ⟨S8000000x1, .f32⟩
  | .hbm, ⟨7, _⟩ => ⟨S8000000x1, .f32⟩
  | .hbm, ⟨8, _⟩ => ⟨S_, .f32⟩
  | .hbm, ⟨9, _⟩ => ⟨S_, .f32⟩
  | .hbm, ⟨10, _⟩ => ⟨S8000000x1, .f32⟩
  | .hbm, ⟨11, _⟩ => ⟨S8000000x1, .f32⟩
  | .hbm, ⟨12, _⟩ => ⟨S8000000x4, .f32⟩
  | .hbm, ⟨13, _⟩ => ⟨S8000000x4, .f32⟩
  | .hbm, ⟨14, _⟩ => ⟨S8000000x1, .f32⟩
  | .hbm, ⟨15, _⟩ => ⟨S8000000, .f32⟩
  | .hbm, ⟨16, _⟩ => ⟨S8000000x1, .f32⟩
  | .hbm, ⟨17, _⟩ => ⟨S8000000, .f32⟩
  | .hbm, ⟨18, _⟩ => ⟨S8000000x1, .f32⟩
  | .hbm, ⟨19, _⟩ => ⟨S8000000, .f32⟩
  | .hbm, ⟨20, _⟩ => ⟨S8000000x1, .f32⟩
  | .hbm, ⟨21, _⟩ => ⟨S8000000, .f32⟩
  | .hbm, ⟨22, _⟩ => ⟨S_, .f32⟩
  | .hbm, ⟨23, _⟩ => ⟨S8000000, .f32⟩
  | .hbm, ⟨24, _⟩ => ⟨S8000000, .f32⟩
  | .hbm, ⟨25, _⟩ => ⟨S8000000, .f32⟩
  | .hbm, ⟨26, _⟩ => ⟨S_, .f32⟩
  | .hbm, ⟨27, _⟩ => ⟨S8000000, .f32⟩
  | .hbm, ⟨28, _⟩ => ⟨S8000000, .f32⟩
  | .hbm, ⟨29, _⟩ => ⟨S_, .f32⟩
  | .hbm, ⟨30, _⟩ => ⟨S8000000, .f32⟩
  | .hbm, ⟨31, _⟩ => ⟨S8000000, .f32⟩
  | .hbm, ⟨32, _⟩ => ⟨S8000000, .f32⟩
  | .hbm, ⟨33, _⟩ => ⟨S8000000, .f32⟩
  | .hbm, ⟨34, _⟩ => ⟨S_, .f32⟩
  | .hbm, ⟨35, _⟩ => ⟨S8000000, .f32⟩
  | .hbm, ⟨36, _⟩ => ⟨S8000000, .f32⟩
  | .hbm, ⟨37, _⟩ => ⟨S8000000, .f32⟩
  | .hbm, ⟨38, _⟩ => ⟨S_, .f32⟩
  | .hbm, ⟨39, _⟩ => ⟨S8000000, .f32⟩
  | .hbm, ⟨40, _⟩ => ⟨S8000000, .f32⟩
  | .hbm, ⟨41, _⟩ => ⟨S8000000, .f32⟩
  | .hbm, ⟨42, _⟩ => ⟨S8000000, .f32⟩
  | .hbm, ⟨43, _⟩ => ⟨S_, .f32⟩
  | .hbm, ⟨44, _⟩ => ⟨S8000000, .f32⟩
  | .hbm, ⟨45, _⟩ => ⟨S8000000, .f32⟩
  | .hbm, ⟨46, _⟩ => ⟨S8000000, .f32⟩
  | .hbm, ⟨47, _⟩ => ⟨S_, .f32⟩
  | .hbm, ⟨48, _⟩ => ⟨S8000000, .f32⟩
  | .hbm, ⟨49, _⟩ => ⟨S8000000, .f32⟩
  | .hbm, ⟨50, _⟩ => ⟨S8000000, .f32⟩
  | .hbm, ⟨51, _⟩ => ⟨S8000000, .f32⟩
  | .hbm, ⟨52, _⟩ => ⟨S_, .f32⟩
  | .hbm, ⟨53, _⟩ => ⟨S8000000, .f32⟩
  | .hbm, ⟨54, _⟩ => ⟨S8000000, .f32⟩
  | .hbm, ⟨55, _⟩ => ⟨S8000000, .f32⟩
  | .hbm, ⟨56, _⟩ => ⟨S_, .f32⟩
  | .hbm, ⟨57, _⟩ => ⟨S8000000, .f32⟩
  | .hbm, ⟨58, _⟩ => ⟨S8000000, .f32⟩
  | .hbm, ⟨59, _⟩ => ⟨S8000000, .f32⟩
  | .hbm, ⟨60, _⟩ => ⟨S8000000, .f32⟩
  | .hbm, ⟨61, _⟩ => ⟨S_, .f32⟩
  | .hbm, ⟨62, _⟩ => ⟨S8000000, .f32⟩
  | .hbm, ⟨63, _⟩ => ⟨S8000000, .f32⟩
  | .hbm, ⟨64, _⟩ => ⟨S8000000, .f32⟩
  | .hbm, ⟨65, _⟩ => ⟨S_, .f32⟩
  | .hbm, ⟨66, _⟩ => ⟨S8000000, .f32⟩
  | .hbm, ⟨67, _⟩ => ⟨S8000000, .f32⟩
  | .hbm, ⟨68, _⟩ => ⟨S_, .f32⟩
  | .hbm, ⟨69, _⟩ => ⟨S8000000, .f32⟩
  | .hbm, ⟨70, _⟩ => ⟨S8000000, .f32⟩
  | .hbm, ⟨71, _⟩ => ⟨S8000000, .f32⟩
  | .hbm, ⟨72, _⟩ => ⟨S8000000, .f32⟩
  | .hbm, ⟨73, _⟩ => ⟨S_, .f32⟩
  | .hbm, ⟨74, _⟩ => ⟨S8000000, .f32⟩
  | .hbm, ⟨75, _⟩ => ⟨S8000000, .f32⟩
  | .hbm, ⟨76, _⟩ => ⟨S8000000, .f32⟩
  | .hbm, ⟨77, _⟩ => ⟨S_, .f32⟩
  | .hbm, ⟨78, _⟩ => ⟨S8000000, .f32⟩
  | .hbm, ⟨79, _⟩ => ⟨S8000000, .f32⟩
  | .hbm, ⟨80, _⟩ => ⟨S8000000, .f32⟩
  | .hbm, ⟨81, _⟩ => ⟨S8000000, .f32⟩
  | .hbm, ⟨82, _⟩ => ⟨S_, .f32⟩
  | .hbm, ⟨83, _⟩ => ⟨S8000000, .f32⟩
  | .hbm, ⟨84, _⟩ => ⟨S8000000, .f32⟩
  | .hbm, ⟨85, _⟩ => ⟨S8000000, .f32⟩
  | .hbm, ⟨86, _⟩ => ⟨S_, .f32⟩
  | .hbm, ⟨87, _⟩ => ⟨S8000000, .f32⟩
  | .hbm, ⟨88, _⟩ => ⟨S8000000, .f32⟩
  | .hbm, ⟨89, _⟩ => ⟨S8000000, .f32⟩
  | .hbm, ⟨90, _⟩ => ⟨S8000000, .f32⟩
  | .hbm, ⟨91, _⟩ => ⟨S_, .f32⟩
  | .hbm, ⟨92, _⟩ => ⟨S8000000, .f32⟩
  | .hbm, ⟨93, _⟩ => ⟨S8000000, .f32⟩
  | .hbm, ⟨94, _⟩ => ⟨S8000000, .f32⟩
  | .hbm, ⟨95, _⟩ => ⟨S_, .f32⟩
  | .hbm, ⟨96, _⟩ => ⟨S8000000, .f32⟩
  | .hbm, ⟨97, _⟩ => ⟨S8000000, .f32⟩
  | .hbm, ⟨98, _⟩ => ⟨S8000000, .f32⟩
  | .hbm, ⟨99, _⟩ => ⟨S8000000, .f32⟩
  | .hbm, ⟨100, _⟩ => ⟨S_, .f32⟩
  | .hbm, ⟨101, _⟩ => ⟨S8000000, .f32⟩
  | .hbm, ⟨102, _⟩ => ⟨S8000000, .f32⟩
  | .hbm, ⟨103, _⟩ => ⟨S8000000, .f32⟩
  | .hbm, ⟨104, _⟩ => ⟨S_, .f32⟩
  | .hbm, ⟨105, _⟩ => ⟨S8000000, .f32⟩
  | .hbm, ⟨106, _⟩ => ⟨S8000000, .f32⟩
  | .hbm, ⟨107, _⟩ => ⟨S_, .f32⟩
  | .hbm, ⟨108, _⟩ => ⟨S8000000, .f32⟩
  | .hbm, ⟨109, _⟩ => ⟨S8000000, .f32⟩
  | .hbm, ⟨110, _⟩ => ⟨S8000000, .f32⟩
  | .hbm, ⟨111, _⟩ => ⟨S8000000, .f32⟩
  | .hbm, ⟨112, _⟩ => ⟨S8000000x1, .f32⟩
  | .hbm, ⟨113, _⟩ => ⟨S8000000x1, .f32⟩
  | .hbm, ⟨114, _⟩ => ⟨S8000000x1, .f32⟩
  | .hbm, ⟨115, _⟩ => ⟨S8000000x1, .f32⟩
  | .hbm, ⟨116, _⟩ => ⟨S8000000x1, .f32⟩
  | .hbm, ⟨117, _⟩ => ⟨S8000000x1, .f32⟩
  | .hbm, ⟨118, _⟩ => ⟨S8000000x1, .f32⟩
  | .hbm, ⟨119, _⟩ => ⟨S8000000x1, .f32⟩
  | .hbm, ⟨120, _⟩ => ⟨S8000000x1, .f32⟩
  | .hbm, ⟨121, _⟩ => ⟨S8000000x9, .f32⟩
  | .hbm, ⟨122, _⟩ => ⟨S8000000x3x3, .f32⟩
  | .hbm, ⟨123, _⟩ => ⟨S8000000x1x3, .f32⟩
  | .hbm, ⟨124, _⟩ => ⟨S8000000x3x3, .f32⟩
  | .hbm, ⟨125, _⟩ => ⟨S8000000x3x3, .f32⟩
  | .hbm, ⟨126, _⟩ => ⟨S8000000x3x3, .f32⟩
  | _, _ => ⟨S8000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_15 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_17 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_18 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_19 : Ref sig .tc := ⟨.hbm, 104, rfl⟩
abbrev main_v76 : Ref sig .tc := ⟨.hbm, 105, rfl⟩
abbrev main_v77 : Ref sig .tc := ⟨.hbm, 106, rfl⟩
abbrev main_cst_20 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩

abbrev nD : Nat := 1
abbrev τ : Topo := Topo.v7x

variable {F : FTy → Type} [FloatOps F]

class Facts₀ : Prop where
  reducesTo_S8000000x4_S8000000_d1 : S8000000x4.ReducesTo [1] S8000000
  h_S_ : 0 < S_.numel
  bcast_S8000000_S8000000x1_0 : S8000000.BroadcastsInDim S8000000x1 (![0] : Fin 1 → Fin S8000000x1.rank)
  bcast_S_S8000000x1 : S_.BroadcastsInDim S8000000x1 (![] : Fin 0 → Fin S8000000x1.rank)
  bcast_S8000000x1_S8000000x4_0_1 : S8000000x1.BroadcastsInDim S8000000x4 (![0, 1] : Fin 2 → Fin S8000000x4.rank)
  slices_S8000000x4_S8000000x1_0_0 : S8000000x4.Slices ![0, 0] S8000000x1
  shapeCasts_S8000000x1_S8000000 : S8000000x1.ShapeCasts S8000000
  slices_S8000000x4_S8000000x1_0_1 : S8000000x4.Slices ![0, 1] S8000000x1
  slices_S8000000x4_S8000000x1_0_2 : S8000000x4.Slices ![0, 2] S8000000x1
  slices_S8000000x4_S8000000x1_0_3 : S8000000x4.Slices ![0, 3] S8000000x1
  bcast_S_S8000000 : S_.BroadcastsInDim S8000000 (![] : Fin 0 → Fin S8000000.rank)
  concatenates_S8000000x1_S8000000x1_S8000000x1_S8000000x1_S8000000x1_S8000000x1_S8000000x1_S8000000x1_S8000000x1_S8000000x9_d1 : Shape.Concatenates [S8000000x1, S8000000x1, S8000000x1, S8000000x1, S8000000x1, S8000000x1, S8000000x1, S8000000x1, S8000000x1] S8000000x9 1
  shapeCasts_S8000000x9_S8000000x3x3 : S8000000x9.ShapeCasts S8000000x3x3
  bcast_S8000000x3_S8000000x1x3_0_2 : S8000000x3.BroadcastsInDim S8000000x1x3 (![0, 2] : Fin 2 → Fin S8000000x1x3.rank)
  bcast_S8000000x1x3_S8000000x3x3_0_1_2 : S8000000x1x3.BroadcastsInDim S8000000x3x3 (![0, 1, 2] : Fin 3 → Fin S8000000x3x3.rank)
  dot_S8000000x3x3_S8000000x3x3_S8000000x3x3_2_2_1_1_0_0_wf : DotDims.WF S8000000x3x3 S8000000x3x3 S8000000x3x3 [2] [2] [1] [1] [0] [0]

variable [Facts₀]

def dot_S8000000x3x3_S8000000x3x3_S8000000x3x3_2_2_1_1_0_0 : DotDims S8000000x3x3 S8000000x3x3 S8000000x3x3 where
  lhsContracting := [2]
  rhsContracting := [2]
  lhsNonContracting := [1]
  rhsNonContracting := [1]
  lhsBatch := [0]
  rhsBatch := [0]
  wf := dot_S8000000x3x3_S8000000x3x3_S8000000x3x3_2_2_1_1_0_0_wf

class Facts : Prop extends Facts₀ where

variable [Facts]
-- ==== Proof.CovSpec.lean ====
/-
  The covariance of a scaled rotation, point by point, over the extended reals.

  A point has a raw scale `s : Fin 3 → EReal` and a raw quaternion `q : Fin 4 → EReal` (w, x, y, z). Its scale is
  `e j = exp (s j)`; its unit quaternion is `q k / len q` with `len q = max (√(∑ k, q k · q k)) ε`; its rotation matrix
  `R` is the usual quadratic form in (w, x, y, z); and its covariance is `(R · diag e) · (R · diag e)ᵀ`, that is
  `cov i k = ∑ j, (R i j · e j) · (R k j · e j)`.

  Two spellings of that number are stated here and proved equal. One writes a rotation entry as `2 · (x · y)`, squares the
  scale first (`e j · e j`), takes each term as `(R i j · R k j) · (e j · e j)`, adds the three terms left to right, and
  fills the lower triangle from the upper one. The other writes `(2 · x) · y`, scales the columns first (`R i j · e j`),
  and sums the products over `j`. They differ only by the commutativity and associativity of `+` and `·`, which hold on
  all of `EReal`, so no finiteness is needed.
-/
import Idealize.ShloMosaic.PureOps.Ideal
import Idealize.ShloMosaic.Lib.ValueIdx

noncomputable section

open scoped BigOperators

namespace Cert.Cov

open Idealize.ShloMosaic Idealize.ShloMosaic.ValueIdx

/-- The three float words the two programs share, as extended reals: 2, 1 and the floor of the quaternion's length. -/
abbrev two : EReal := Ideal.ofBits .f32 0x40000000#32
abbrev one : EReal := Ideal.ofBits .f32 0x3F800000#32
abbrev eps : EReal := Ideal.ofBits .f32 0x2B8CBCCC#32

/-- The quaternion's length, kept away from zero. -/
def len (q : Fin 4 → EReal) : EReal := max (Ideal.sqrt (∑ k : Fin 4, q k * q k)) eps

/-- The unit quaternion's component `k`. -/
def unit (q : Fin 4 → EReal) (k : Fin 4) : EReal := Ideal.div (q k) (len q)

/-- The rotation matrix of (w, x, y, z), each product of two components taken first and then doubled. -/
def rotA (w x y z : EReal) : Fin 3 → Fin 3 → EReal
  | 0, 0 => one - two * (y * y) - two * (z * z)
  | 0, 1 => two * (x * y) - two * (w * z)
  | 0, 2 => two * (x * z) + two * (w * y)
  | 1, 0 => two * (x * y) + two * (w * z)
  | 1, 1 => one - two * (x * x) - two * (z * z)
  | 1, 2 => two * (y * z) - two * (w * x)
  | 2, 0 => two * (x * z) - two * (w * y)
  | 2, 1 => two * (y * z) + two * (w * x)
  | 2, 2 => one - two * (x * x) - two * (y * y)

/-- The same matrix, one component doubled first and then multiplied by the other. -/
def rotB (w x y z : EReal) : Fin 3 → Fin 3 → EReal
  | 0, 0 => one - two * y * y - two * z * z
  | 0, 1 => two * x * y - two * w * z
  | 0, 2 => two * x * z + two * w * y
  | 1, 0 => two * x * y + two * w * z
  | 1, 1 => one - two * x * x - two * z * z
  | 1, 2 => two * y * z - two * w * x
  | 2, 0 => two * x * z - two * w * y
  | 2, 1 => two * y * z + two * w * x
  | 2, 2 => one - two * x * x - two * y * y

theorem rotA_eq_rotB (w x y z : EReal) : rotA w x y z = rotB w x y z := by
  funext i k
  fin_cases i <;> fin_cases k <;> simp only [rotA, rotB, mul_assoc]

/-- One entry of the upper triangle: the three terms `(R i j · R k j) · (e j · e j)`, added left to right. -/
def tri (R : Fin 3 → Fin 3 → EReal) (e : Fin 3 → EReal) (i k : Fin 3) : EReal :=
  R i 0 * R k 0 * (e 0 * e 0) + R i 1 * R k 1 * (e 1 * e 1) + R i 2 * R k 2 * (e 2 * e 2)

/-- The symmetric matrix filled from its upper triangle. -/
def covA (R : Fin 3 → Fin 3 → EReal) (e : Fin 3 → EReal) : Fin 3 → Fin 3 → EReal
  | 0, 0 => tri R e 0 0
  | 0, 1 => tri R e 0 1
  | 0, 2 => tri R e 0 2
  | 1, 0 => tri R e 0 1
  | 1, 1 => tri R e 1 1
  | 1, 2 => tri R e 1 2
  | 2, 0 => tri R e 0 2
  | 2, 1 => tri R e 1 2
  | 2, 2 => tri R e 2 2

/-- The product of the column-scaled matrix with its transpose. -/
def covB (R : Fin 3 → Fin 3 → EReal) (e : Fin 3 → EReal) (i k : Fin 3) : EReal :=
  ∑ j : Fin 3, (R i j * e j) * (R k j * e j)

theorem tri_eq_covB (R : Fin 3 → Fin 3 → EReal) (e : Fin 3 → EReal) (i k : Fin 3) : tri R e i k = covB R e i k := by
  unfold tri covB
  rw [Fin.sum_univ_three]
  simp only [mul_mul_mul_comm]

theorem covB_symm (R : Fin 3 → Fin 3 → EReal) (e : Fin 3 → EReal) (i k : Fin 3) : covB R e i k = covB R e k i := by
  unfold covB
  exact Finset.sum_congr rfl fun j _ => mul_comm _ _

theorem covA_eq_covB (R : Fin 3 → Fin 3 → EReal) (e : Fin 3 → EReal) (i k : Fin 3) : covA R e i k = covB R e i k := by
  fin_cases i <;> fin_cases k <;> simp only [covA, tri_eq_covB] <;> first | rfl | exact covB_symm R e _ _

/-- A point's covariance in the first spelling. -/
def pointA (s : Fin 3 → EReal) (q : Fin 4 → EReal) (i k : Fin 3) : EReal :=
  covA (rotA (unit q 0) (unit q 1) (unit q 2) (unit q 3)) (fun j => Ideal.exp (s j)) i k

/-- A point's covariance in the second spelling. -/
def pointB (s : Fin 3 → EReal) (q : Fin 4 → EReal) (i k : Fin 3) : EReal :=
  covB (rotB (unit q 0) (unit q 1) (unit q 2) (unit q 3)) (fun j => Ideal.exp (s j)) i k

theorem pointA_eq_pointB (s : Fin 3 → EReal) (q : Fin 4 → EReal) (i k : Fin 3) : pointA s q i k = pointB s q i k := by
  unfold pointA pointB
  rw [covA_eq_covB, rotA_eq_rotB]

/-! ## The whole arrays -/

abbrev SN3 : Shape := ⟨2, ![8000000, 3]⟩
abbrev SN4 : Shape := ⟨2, ![8000000, 4]⟩
abbrev SN33 : Shape := ⟨3, ![8000000, 3, 3]⟩

/-- Every point's covariance, from the array of raw scales and the array of raw quaternions, in the first spelling. -/
def arrA (a0 : SN3.Idx → EReal) (a1 : SN4.Idx → EReal) : SN33.Idx → EReal := fun i =>
  pointA (fun j : Fin 3 => a0 (ix2 (n0 := 8000000) (n1 := 3) ⟨(i 0).val, (i 0).isLt⟩ j))
    (fun k : Fin 4 => a1 (ix2 (n0 := 8000000) (n1 := 4) ⟨(i 0).val, (i 0).isLt⟩ k)) ⟨(i 1).val, (i 1).isLt⟩ ⟨(i 2).val, (i 2).isLt⟩

/-- The same in the second spelling. -/
def arrB (a0 : SN3.Idx → EReal) (a1 : SN4.Idx → EReal) : SN33.Idx → EReal := fun i =>
  pointB (fun j : Fin 3 => a0 (ix2 (n0 := 8000000) (n1 := 3) ⟨(i 0).val, (i 0).isLt⟩ j))
    (fun k : Fin 4 => a1 (ix2 (n0 := 8000000) (n1 := 4) ⟨(i 0).val, (i 0).isLt⟩ k)) ⟨(i 1).val, (i 1).isLt⟩ ⟨(i 2).val, (i 2).isLt⟩

theorem arrA_eq_arrB (a0 : SN3.Idx → EReal) (a1 : SN4.Idx → EReal) : arrA a0 a1 = arrB a0 a1 :=
  funext fun _ => pointA_eq_pointB _ _ _ _

end Cert.Cov

end
-- ==== Proof.KHost.lean ====
/-
  The program around its one region, at any float instance.

  @main is two host lines (the two argument arrays joined along the channel axis, then transposed so that the
  eight million points lie along the last axis), the region, and twenty-four host lines that re-lay the region's
  six rows as the nine entries of a symmetric 3 × 3 matrix per point. Here: the contents every buffer has when the
  region is entered; that @main is those host lines around the region; that the lines after the region touch only
  unscoped buffers, allocate nothing and write no array the region stages; that neither argument array is written
  before or after the region; a window's block of its array at a grid point; and that a run ending with every staged
  array at what the region's proof data say, and every other buffer as the later lines leave it, ends with both
  argument arrays unchanged.
-/
import proofs.«159295_j21534966022500_2_alg».proof.Proof.Gen.Kernel.Launch
import proofs.«159295_j21534966022500_2_alg».proof.Proof.Gen.Kernel.Skeleton
import proofs.«159295_j21534966022500_2_alg».proof.Proof.Gen.Kernel.Points
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents at the region's entry -/

/-- Core `c`'s buffers after the two host lines before the region. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- No host line allocates. -/
theorem pre_fresh : (hostOps0 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- @main is the host lines before the region, the region, and the host lines after it. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-! ## The lines after the region -/

/-- They touch unscoped buffers only. -/
theorem post_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem post_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop

/-- Each writes its own result buffer, which is neither the transposed input nor the region's result. -/
theorem post_writes : (hostOps1 : List (HloOp τ sig (Elt F))).Forall fun op =>
    ∀ w, Proc.devRef .tc (Pipeline.arrRef spec0 w) ∉ op.writes := by
  simp only [hostOps1, List.Forall]
  repeat' apply And.intro
  all_goals
    intro w
    fin_cases w <;>
      simp only [StableHlo.unary_writes, StableHlo.reshape_writes, StableHlo.nary_writes, Finset.mem_singleton] <;>
      exact StableHlo.devRef_ne_of_ne (by decide)

theorem post_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp post_writes) op hop

/-! ## The argument arrays are never written -/

theorem pre_keeps_arg (r : Ref sig .tc) (h0 : r ≠ main_v0) (h1 : r ≠ main_v1) :
    ∀ op ∈ (List.flatten [hostOps0] : List (HloOp τ sig (Elt F))), Proc.devRef .tc r ∉ op.writes :=
  List.forall_iff_forall_mem.mp (by
    simp only [hostOps0, List.flatten_cons, List.flatten_nil, List.append_nil, List.cons_append,
      List.nil_append, List.Forall, StableHlo.unary_writes, StableHlo.binary_writes, Finset.mem_singleton]
    exact ⟨StableHlo.devRef_ne_of_ne h0, StableHlo.devRef_ne_of_ne h1⟩)

/-- The region finds each argument array as launched. -/
theorem V_arg0 (c : Dev nD) : V m c main_arg0 = m ((c : Thread nD τ).loc main_arg0) :=
  StableHlo.after_of_forall_not_mem (b := Proc.devRef .tc main_arg0) _ _ (pre_keeps_arg main_arg0 (by decide) (by decide))
theorem V_arg1 (c : Dev nD) : V m c main_arg1 = m ((c : Thread nD τ).loc main_arg1) :=
  StableHlo.after_of_forall_not_mem (b := Proc.devRef .tc main_arg1) _ _ (pre_keeps_arg main_arg1 (by decide) (by decide))

/-- No line after the region writes an argument array. -/
theorem post_keeps_arg0 : ∀ op ∈ (List.flatten [hostOps1] : List (HloOp τ sig (Elt F))), Proc.devRef .tc main_arg0 ∉ op.writes :=
  List.forall_iff_forall_mem.mp (by
    simp only [hostOps1, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide))
theorem post_keeps_arg1 : ∀ op ∈ (List.flatten [hostOps1] : List (HloOp τ sig (Elt F))), Proc.devRef .tc main_arg1 ∉ op.writes :=
  List.forall_iff_forall_mem.mp (by
    simp only [hostOps1, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide))

/-- Each argument array ends as launched, whatever the region's proof data. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ post_keeps_arg0,
    Pipeline.withArrays_of_ne _ c (V0 m c) _ main_arg0 (by exact (by decide : ∀ w, Pipeline.arrRef spec0 w ≠ main_arg0))]
  exact V_arg0 m c
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ post_keeps_arg1,
    Pipeline.withArrays_of_ne _ c (V0 m c) _ main_arg1 (by exact (by decide : ∀ w, Pipeline.arrRef spec0 w ≠ main_arg1))]
  exact V_arg1 m c

/-! ## A window's block -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block when the body starts, at every grid point, for any proof data
    whose array is the region-entry one and whose body leaves the input's buffer as it found it. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## From a frame run to the frame claim -/

/-- Both argument arrays are buffers no window stages, so a frame run's post gives them at what the later lines
    leave, which is what was launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_arg0 m dats c),
     ((h c).2 main_arg1 (Pipeline.mem_restRefs_of main_arg1 (by decide) (by decide))).trans (W_arg1 m dats c)⟩) h

end Cert.Kernel.Hand

end
-- ==== Proof.KBody.lean ====
/-
  The kernel body on one block: what it leaves in the output window's buffer, and its run.

  The body reads the input block twice — rows 0 to 2 (the raw scales) and rows 3 to 6 (the raw quaternion) — and
  stores six rows of the output block, one per entry of the covariance's upper triangle. Each stored row is a pure
  term of the two loads: `row0` … `row5` below spell it over the named payloads of the printed function. The output
  buffer after the body is those six rows laid at their places (`blockOut`); the six rows tile the buffer. The body
  also loads each output row just before storing it and drops the value, so what the buffer held before does not
  reach the result.
-/
import proofs.«159295_j21534966022500_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rectangles the body reads and writes -/

/-- Rows 0–2 of the input block: the raw scales. -/
abbrev rScale : Rect S7x80000 := Rect.unit (s := S7x80000) ![0, 0] S3x80000.size inb_S7x80000_S3x80000_0_0
/-- Rows 3–6 of the input block: the raw quaternion. -/
abbrev rQuat : Rect S7x80000 := Rect.unit (s := S7x80000) ![3, 0] S4x80000.size inb_S7x80000_S4x80000_3_0
/-- Row `k` of the output block. -/
abbrev rOut0 : Rect S6x80000 := Rect.unit (s := S6x80000) ![0, 0] S1x80000.size inb_S6x80000_S1x80000_0_0
abbrev rOut1 : Rect S6x80000 := Rect.unit (s := S6x80000) ![1, 0] S1x80000.size inb_S6x80000_S1x80000_1_0
abbrev rOut2 : Rect S6x80000 := Rect.unit (s := S6x80000) ![2, 0] S1x80000.size inb_S6x80000_S1x80000_2_0
abbrev rOut3 : Rect S6x80000 := Rect.unit (s := S6x80000) ![3, 0] S1x80000.size inb_S6x80000_S1x80000_3_0
abbrev rOut4 : Rect S6x80000 := Rect.unit (s := S6x80000) ![4, 0] S1x80000.size inb_S6x80000_S1x80000_4_0
abbrev rOut5 : Rect S6x80000 := Rect.unit (s := S6x80000) ![5, 0] S1x80000.size inb_S6x80000_S1x80000_5_0

/-! ## The six stored rows, from the two loads -/

section Rows
variable (v0 : Vec F S3x80000 .f32) (v2 : Vec F S4x80000 .f32)

/-- The squared scales (one row each). -/
abbrev sq0 : FVec F S1x80000 .f32 := k0_pay7 v0
abbrev sq1 : FVec F S1x80000 .f32 := k0_pay8 v0
abbrev sq2 : FVec F S1x80000 .f32 := k0_pay9 v0
/-- The literal 2 the first part hands to the second. -/
abbrev lit2 : F .f32 := Scalar.ofBits .f32 0x40000000#32
/-- The nine rotation entries (one row each). -/
abbrev R00 : FVec F S1x80000 .f32 := k0_pay19 v2
abbrev R01 : FVec F S1x80000 .f32 := k0_pay20 v2
abbrev R02 : FVec F S1x80000 .f32 := k0_pay21 (k0_pay14 v2) (k0_pay17 v2) lit2
abbrev R10 : FVec F S1x80000 .f32 := k0_pay22 (k0_pay13 v2) (k0_pay18 v2)
abbrev R11 : FVec F S1x80000 .f32 := k0_pay23 (k0_pay10 v2) (k0_pay12 v2)
abbrev R12 : FVec F S1x80000 .f32 := k0_pay24 (k0_pay15 v2) (k0_pay16 v2)
abbrev R20 : FVec F S1x80000 .f32 := k0_pay25 (k0_pay14 v2) (k0_pay17 v2)
abbrev R21 : FVec F S1x80000 .f32 := k0_pay26 (k0_pay15 v2) (k0_pay16 v2)
abbrev R22 : FVec F S1x80000 .f32 := k0_pay27 (k0_pay10 v2) (k0_pay11 v2)

/-- Entry (0,0): its first two terms and the square of the third factor come from the second part. -/
def row0 : FVec F S1x80000 .f32 :=
  k0_pay30 (sq2 v0) (k0_pay28 (sq0 v0) (sq1 v0) (R00 v2) (R01 v2)) (k0_pay29 (k0_pay14 v2) (k0_pay17 v2) lit2)
/-- Entry (0,1). -/
def row1 : FVec F S1x80000 .f32 :=
  k0_pay31 (sq0 v0) (sq1 v0) (sq2 v0) (R00 v2) (R01 v2) (R02 v2) (R10 v2) (R11 v2) (R12 v2)
/-- Entry (0,2). -/
def row2 : FVec F S1x80000 .f32 :=
  k0_pay32 (sq0 v0) (sq1 v0) (sq2 v0) (R00 v2) (R01 v2) (R02 v2) (R20 v2) (R21 v2) (R22 v2)
/-- Entry (1,1). -/
def row3 : FVec F S1x80000 .f32 :=
  k0_pay33 (sq0 v0) (sq1 v0) (sq2 v0) (R10 v2) (R11 v2) (R12 v2)
/-- Entry (1,2). -/
def row4 : FVec F S1x80000 .f32 :=
  k0_pay34 (sq0 v0) (sq1 v0) (sq2 v0) (R10 v2) (R11 v2) (R12 v2) (R20 v2) (R21 v2) (R22 v2)
/-- Entry (2,2). -/
def row5 : FVec F S1x80000 .f32 :=
  k0_pay35 (sq0 v0) (sq1 v0) (sq2 v0) (R20 v2) (R21 v2) (R22 v2)

end Rows

/-! ## The output buffer after the body -/

/-- The six stores as pieces, the last store first. -/
def pieces (x : Vec F S7x80000 .f32) : List (View.Piece (Elt F) S6x80000 .f32) :=
  [⟨rOut5, row5 (View.ld x rScale) (View.ld x rQuat)⟩,
   ⟨rOut4, row4 (View.ld x rScale) (View.ld x rQuat)⟩,
   ⟨rOut3, row3 (View.ld x rScale) (View.ld x rQuat)⟩,
   ⟨rOut2, row2 (View.ld x rScale) (View.ld x rQuat)⟩,
   ⟨rOut1, row1 (View.ld x rScale) (View.ld x rQuat)⟩,
   ⟨rOut0, row0 (View.ld x rScale) (View.ld x rQuat)⟩]

/-- The output buffer after the body, from the input block. -/
def blockOut (x : Vec F S7x80000 .f32) : Vec F S6x80000 .f32 := View.canon (pieces x)

/-- Six rows of one row each tile a buffer of six rows. -/
theorem rows_cover (p0 p1 p2 p3 p4 p5 : Vec F S1x80000 .f32) (y : S6x80000.Idx) :
    ∃ pc ∈ ([⟨rOut5, p5⟩, ⟨rOut4, p4⟩, ⟨rOut3, p3⟩, ⟨rOut2, p2⟩, ⟨rOut1, p1⟩, ⟨rOut0, p0⟩] : List (View.Piece (Elt F) S6x80000 .f32)), y ∈ pc.1.set :=
  View.cover_of_tiled [⟨rOut5, p5⟩, ⟨rOut4, p4⟩, ⟨rOut3, p3⟩, ⟨rOut2, p2⟩, ⟨rOut1, p1⟩, ⟨rOut0, p0⟩] S1x80000.size (by rfl) y

/-! ## The body's run -/

set_option maxHeartbeats 2000000 in
/-- On whole staging buffers, the input's holding `x` and the output's holding anything, the body runs to its end,
    leaves the input's as it was and the output's at `blockOut x`. -/
theorem body_run (c : Dev nD) (E : Set ℕ) (i : grid0.Coords) (arg1 : Memref sig .tc .vmem S7x80000 .f32) (harg1 : arg1.IsWhole)
    (arg2 : Memref sig .tc .vmem S6x80000 .f32) (harg2 : arg2.IsWhole)
    (x : Vec F S7x80000 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (blockOut x)) -∗ K ⟨⟩))
      ⊢ wp frame (wpE (defs₀ (F := F)) Variants.none c none) E (cc0__gaussian_cov_kernel i arg1 harg1 arg2 harg2) K := by
  simp only [cc0__gaussian_cov_kernel_eq_skeleton]; unfold cc0__gaussian_cov_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (rows_cover _ _ _ _ _ _)

end Cert.Kernel.Hand

end
-- ==== Proof.KFrame.lean ====
/-
  The region's proof data, the body at every grid point, and the program's run.

  The proof data say: each staged array is what the region finds; after the body at grid point `t` the input
  window's buffer still holds block `t` of the transposed input, and the output window's buffer holds `blockOut` of
  that block; the body keeps nothing between points and signals no one. With them the body's run at a generic point is
  the library's body obligation, and the launch theorem for a region with host lines on both sides gives the run of
  @main: it ends, faults nowhere, leaves every staged array at what the proof data compute and every other buffer
  as the later host lines leave it. Both argument arrays are such other buffers that no line writes: the frame.
-/
import proofs.«159295_j21534966022500_2_alg».proof.Proof.KHost
import proofs.«159295_j21534966022500_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The region's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockOut (iblk m c 0 t)
  Φ _ := Pipeline.ΦA spec0 c
  q _ := fullShare
  owed _ := 0

/-- Its arrays are the region-entry contents. -/
theorem dats_A (c : Dev nD) (w : Fin cfg0.W) : (dats m 0 c).A w = V m c (Pipeline.arrRef spec0 w) := by
  dsimp only [dats]

/-- What the body leaves, window by window. -/
theorem dats_after_in (c : Dev nD) (t : Fin cfg0.N) : (dats m 0 c).after 0 t = iblk m c 0 t := by dsimp only [dats]
theorem dats_after_out (c : Dev nD) (t : Fin cfg0.N) : (dats m 0 c).after 1 t = blockOut (iblk m c 0 t) := by dsimp only [dats]

/-- The input's staging buffer holds its block when the body starts. -/
theorem dats_before_in (c : Dev nD) (t : Fin cfg0.N) (d) : (dats m 0 c).before 0 t d = iblk m c 0 t :=
  before_in_of m (dats m 0 c) (dats_A m c 0) (dats_after_in m c) t d

/-! ## The body at a generic grid point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The input's buffer holds block `t`, so the body's run applies; the invariant and the core's dues pass through. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [dats_before_in]
  rw [show (dats m 0 c).Φ t.succ = (dats m 0 c).Φ t.castSucc from rfl,
    show (dats m 0 c).owesAt () t.succ = (dats m 0 c).owesAt () t.castSucc from rfl,
    dats_after_in, dats_after_out]
  iintro ⟨HΦ, Ho, ⟨%d0, H0⟩, ⟨%d1, H1⟩⟩
  iapply (body_run c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates without a fault; at the end every staged array holds what the
    proof data compute, and every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := post_sub) (hfresh := post_alloc) (hkeep := post_keeps)
    (hmain := main_around m Variants.none) (hA := dats_A m) (hΦ := fun _ _ => rfl)

/-- The frame: @main runs to its end and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Hand

end
-- ==== Proof.KIHost.lean ====
/-
  The program around its one region, at any float instance.

  @main is two host lines (the two argument arrays joined along the channel axis, then transposed so that the
  eight million points lie along the last axis), the region, and twenty-four host lines that re-lay the region's
  six rows as the nine entries of a symmetric 3 × 3 matrix per point. Here: the contents every buffer has when the
  region is entered; that @main is those host lines around the region; that the lines after the region touch only
  unscoped buffers, allocate nothing and write no array the region stages; that neither argument array is written
  before or after the region; a window's block of its array at a grid point; and that a run ending with every staged
  array at what the region's proof data say, and every other buffer as the later lines leave it, ends with both
  argument arrays unchanged.
-/
import proofs.«159295_j21534966022500_2_alg».proof.Proof.Gen.KernelIdeal.Launch
import proofs.«159295_j21534966022500_2_alg».proof.Proof.Gen.KernelIdeal.Skeleton
import proofs.«159295_j21534966022500_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents at the region's entry -/

/-- Core `c`'s buffers after the two host lines before the region. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- No host line allocates. -/
theorem pre_fresh : (hostOps0 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- @main is the host lines before the region, the region, and the host lines after it. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-! ## The lines after the region -/

/-- They touch unscoped buffers only. -/
theorem post_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem post_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop

/-- Each writes its own result buffer, which is neither the transposed input nor the region's result. -/
theorem post_writes : (hostOps1 : List (HloOp τ sig (Elt F))).Forall fun op =>
    ∀ w, Proc.devRef .tc (Pipeline.arrRef spec0 w) ∉ op.writes := by
  simp only [hostOps1, List.Forall]
  repeat' apply And.intro
  all_goals
    intro w
    fin_cases w <;>
      simp only [StableHlo.unary_writes, StableHlo.reshape_writes, StableHlo.nary_writes, Finset.mem_singleton] <;>
      exact StableHlo.devRef_ne_of_ne (by decide)

theorem post_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp post_writes) op hop

/-! ## The argument arrays are never written -/

theorem pre_keeps_arg (r : Ref sig .tc) (h0 : r ≠ main_v0) (h1 : r ≠ main_v1) :
    ∀ op ∈ (List.flatten [hostOps0] : List (HloOp τ sig (Elt F))), Proc.devRef .tc r ∉ op.writes :=
  List.forall_iff_forall_mem.mp (by
    simp only [hostOps0, List.flatten_cons, List.flatten_nil, List.append_nil, List.cons_append,
      List.nil_append, List.Forall, StableHlo.unary_writes, StableHlo.binary_writes, Finset.mem_singleton]
    exact ⟨StableHlo.devRef_ne_of_ne h0, StableHlo.devRef_ne_of_ne h1⟩)

/-- The region finds each argument array as launched. -/
theorem V_arg0 (c : Dev nD) : V m c main_arg0 = m ((c : Thread nD τ).loc main_arg0) :=
  StableHlo.after_of_forall_not_mem (b := Proc.devRef .tc main_arg0) _ _ (pre_keeps_arg main_arg0 (by decide) (by decide))
theorem V_arg1 (c : Dev nD) : V m c main_arg1 = m ((c : Thread nD τ).loc main_arg1) :=
  StableHlo.after_of_forall_not_mem (b := Proc.devRef .tc main_arg1) _ _ (pre_keeps_arg main_arg1 (by decide) (by decide))

/-- No line after the region writes an argument array. -/
theorem post_keeps_arg0 : ∀ op ∈ (List.flatten [hostOps1] : List (HloOp τ sig (Elt F))), Proc.devRef .tc main_arg0 ∉ op.writes :=
  List.forall_iff_forall_mem.mp (by
    simp only [hostOps1, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide))
theorem post_keeps_arg1 : ∀ op ∈ (List.flatten [hostOps1] : List (HloOp τ sig (Elt F))), Proc.devRef .tc main_arg1 ∉ op.writes :=
  List.forall_iff_forall_mem.mp (by
    simp only [hostOps1, List.flatten_cons, List.flatten_nil, List.append_nil, List.cons_append,
      List.nil_append, List.Forall, StableHlo.unary_writes, StableHlo.reshape_writes, StableHlo.nary_writes, Finset.mem_singleton]
    repeat' apply And.intro
    all_goals exact StableHlo.devRef_ne_of_ne (by decide))

/-- Each argument array ends as launched, whatever the region's proof data. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ post_keeps_arg0,
    Pipeline.withArrays_of_ne _ c (V0 m c) _ main_arg0 (by exact (by decide : ∀ w, Pipeline.arrRef spec0 w ≠ main_arg0))]
  exact V_arg0 m c
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ post_keeps_arg1,
    Pipeline.withArrays_of_ne _ c (V0 m c) _ main_arg1 (by exact (by decide : ∀ w, Pipeline.arrRef spec0 w ≠ main_arg1))]
  exact V_arg1 m c

/-! ## A window's block -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block when the body starts, at every grid point, for any proof data
    whose array is the region-entry one and whose body leaves the input's buffer as it found it. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## From a frame run to the frame claim -/

/-- Both argument arrays are buffers no window stages, so a frame run's post gives them at what the later lines
    leave, which is what was launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_arg0 m dats c),
     ((h c).2 main_arg1 (Pipeline.mem_restRefs_of main_arg1 (by decide) (by decide))).trans (W_arg1 m dats c)⟩) h

end Cert.KernelIdeal.Hand

end
-- ==== Proof.KIBody.lean ====
/-
  The kernel body on one block: what it leaves in the output window's buffer, and its run.

  The body reads the input block twice — rows 0 to 2 (the raw scales) and rows 3 to 6 (the raw quaternion) — and
  stores six rows of the output block, one per entry of the covariance's upper triangle. Each stored row is a pure
  term of the two loads: `row0` … `row5` below spell it over the named payloads of the printed function. The output
  buffer after the body is those six rows laid at their places (`blockOut`); the six rows tile the buffer. The body
  also loads each output row just before storing it and drops the value, so what the buffer held before does not
  reach the result.
-/
import proofs.«159295_j21534966022500_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The rectangles the body reads and writes -/

/-- Rows 0–2 of the input block: the raw scales. -/
abbrev rScale : Rect S7x80000 := Rect.unit (s := S7x80000) ![0, 0] S3x80000.size inb_S7x80000_S3x80000_0_0
/-- Rows 3–6 of the input block: the raw quaternion. -/
abbrev rQuat : Rect S7x80000 := Rect.unit (s := S7x80000) ![3, 0] S4x80000.size inb_S7x80000_S4x80000_3_0
/-- Row `k` of the output block. -/
abbrev rOut0 : Rect S6x80000 := Rect.unit (s := S6x80000) ![0, 0] S1x80000.size inb_S6x80000_S1x80000_0_0
abbrev rOut1 : Rect S6x80000 := Rect.unit (s := S6x80000) ![1, 0] S1x80000.size inb_S6x80000_S1x80000_1_0
abbrev rOut2 : Rect S6x80000 := Rect.unit (s := S6x80000) ![2, 0] S1x80000.size inb_S6x80000_S1x80000_2_0
abbrev rOut3 : Rect S6x80000 := Rect.unit (s := S6x80000) ![3, 0] S1x80000.size inb_S6x80000_S1x80000_3_0
abbrev rOut4 : Rect S6x80000 := Rect.unit (s := S6x80000) ![4, 0] S1x80000.size inb_S6x80000_S1x80000_4_0
abbrev rOut5 : Rect S6x80000 := Rect.unit (s := S6x80000) ![5, 0] S1x80000.size inb_S6x80000_S1x80000_5_0

/-! ## The six stored rows, from the two loads -/

section Rows
variable (v0 : Vec F S3x80000 .f32) (v2 : Vec F S4x80000 .f32)

/-- The squared scales (one row each). -/
abbrev sq0 : FVec F S1x80000 .f32 := k0_pay7 v0
abbrev sq1 : FVec F S1x80000 .f32 := k0_pay8 v0
abbrev sq2 : FVec F S1x80000 .f32 := k0_pay9 v0
/-- The literal 2 the first part hands to the second. -/
abbrev lit2 : F .f32 := Scalar.ofBits .f32 0x40000000#32
/-- The nine rotation entries (one row each). -/
abbrev R00 : FVec F S1x80000 .f32 := k0_pay19 v2
abbrev R01 : FVec F S1x80000 .f32 := k0_pay20 v2
abbrev R02 : FVec F S1x80000 .f32 := k0_pay21 (k0_pay14 v2) (k0_pay17 v2) lit2
abbrev R10 : FVec F S1x80000 .f32 := k0_pay22 (k0_pay13 v2) (k0_pay18 v2)
abbrev R11 : FVec F S1x80000 .f32 := k0_pay23 (k0_pay10 v2) (k0_pay12 v2)
abbrev R12 : FVec F S1x80000 .f32 := k0_pay24 (k0_pay15 v2) (k0_pay16 v2)
abbrev R20 : FVec F S1x80000 .f32 := k0_pay25 (k0_pay14 v2) (k0_pay17 v2)
abbrev R21 : FVec F S1x80000 .f32 := k0_pay26 (k0_pay15 v2) (k0_pay16 v2)
abbrev R22 : FVec F S1x80000 .f32 := k0_pay27 (k0_pay10 v2) (k0_pay11 v2)

/-- Entry (0,0): its first two terms and the square of the third factor come from the second part. -/
def row0 : FVec F S1x80000 .f32 :=
  k0_pay30 (sq2 v0) (k0_pay28 (sq0 v0) (sq1 v0) (R00 v2) (R01 v2)) (k0_pay29 (k0_pay14 v2) (k0_pay17 v2) lit2)
/-- Entry (0,1). -/
def row1 : FVec F S1x80000 .f32 :=
  k0_pay31 (sq0 v0) (sq1 v0) (sq2 v0) (R00 v2) (R01 v2) (R02 v2) (R10 v2) (R11 v2) (R12 v2)
/-- Entry (0,2). -/
def row2 : FVec F S1x80000 .f32 :=
  k0_pay32 (sq0 v0) (sq1 v0) (sq2 v0) (R00 v2) (R01 v2) (R02 v2) (R20 v2) (R21 v2) (R22 v2)
/-- Entry (1,1). -/
def row3 : FVec F S1x80000 .f32 :=
  k0_pay33 (sq0 v0) (sq1 v0) (sq2 v0) (R10 v2) (R11 v2) (R12 v2)
/-- Entry (1,2). -/
def row4 : FVec F S1x80000 .f32 :=
  k0_pay34 (sq0 v0) (sq1 v0) (sq2 v0) (R10 v2) (R11 v2) (R12 v2) (R20 v2) (R21 v2) (R22 v2)
/-- Entry (2,2). -/
def row5 : FVec F S1x80000 .f32 :=
  k0_pay35 (sq0 v0) (sq1 v0) (sq2 v0) (R20 v2) (R21 v2) (R22 v2)

end Rows

/-! ## The output buffer after the body -/

/-- The six stores as pieces, the last store first. -/
def pieces (x : Vec F S7x80000 .f32) : List (View.Piece (Elt F) S6x80000 .f32) :=
  [⟨rOut5, row5 (View.ld x rScale) (View.ld x rQuat)⟩,
   ⟨rOut4, row4 (View.ld x rScale) (View.ld x rQuat)⟩,
   ⟨rOut3, row3 (View.ld x rScale) (View.ld x rQuat)⟩,
   ⟨rOut2, row2 (View.ld x rScale) (View.ld x rQuat)⟩,
   ⟨rOut1, row1 (View.ld x rScale) (View.ld x rQuat)⟩,
   ⟨rOut0, row0 (View.ld x rScale) (View.ld x rQuat)⟩]

/-- The output buffer after the body, from the input block. -/
def blockOut (x : Vec F S7x80000 .f32) : Vec F S6x80000 .f32 := View.canon (pieces x)

/-- Six rows of one row each tile a buffer of six rows. -/
theorem rows_cover (p0 p1 p2 p3 p4 p5 : Vec F S1x80000 .f32) (y : S6x80000.Idx) :
    ∃ pc ∈ ([⟨rOut5, p5⟩, ⟨rOut4, p4⟩, ⟨rOut3, p3⟩, ⟨rOut2, p2⟩, ⟨rOut1, p1⟩, ⟨rOut0, p0⟩] : List (View.Piece (Elt F) S6x80000 .f32)), y ∈ pc.1.set :=
  View.cover_of_tiled [⟨rOut5, p5⟩, ⟨rOut4, p4⟩, ⟨rOut3, p3⟩, ⟨rOut2, p2⟩, ⟨rOut1, p1⟩, ⟨rOut0, p0⟩] S1x80000.size (by rfl) y

/-! ## The body's run -/

set_option maxHeartbeats 2000000 in
/-- On whole staging buffers, the input's holding `x` and the output's holding anything, the body runs to its end,
    leaves the input's as it was and the output's at `blockOut x`. -/
theorem body_run (c : Dev nD) (E : Set ℕ) (i : grid0.Coords) (arg1 : Memref sig .tc .vmem S7x80000 .f32) (harg1 : arg1.IsWhole)
    (arg2 : Memref sig .tc .vmem S6x80000 .f32) (harg2 : arg2.IsWhole)
    (x : Vec F S7x80000 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (blockOut x)) -∗ K ⟨⟩))
      ⊢ wp frame (wpE (defs₀ (F := F)) Variants.none c none) E (cc0__gaussian_cov_kernel i arg1 harg1 arg2 harg2) K := by
  simp only [cc0__gaussian_cov_kernel_eq_skeleton]; unfold cc0__gaussian_cov_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (rows_cover _ _ _ _ _ _)

end Cert.KernelIdeal.Hand

end
-- ==== Proof.KIFrame.lean ====
/-
  The region's proof data, the body at every grid point, and the program's run.

  The proof data say: each staged array is what the region finds; after the body at grid point `t` the input
  window's buffer still holds block `t` of the transposed input, and the output window's buffer holds `blockOut` of
  that block; the body keeps nothing between points and signals no one. With them the body's run at a generic point is
  the library's body obligation, and the launch theorem for a region with host lines on both sides gives the run of
  @main: it ends, faults nowhere, leaves every staged array at what the proof data compute and every other buffer
  as the later host lines leave it. Both argument arrays are such other buffers that no line writes: the frame.
-/
import proofs.«159295_j21534966022500_2_alg».proof.Proof.KIHost
import proofs.«159295_j21534966022500_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The region's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockOut (iblk m c 0 t)
  Φ _ := Pipeline.ΦA spec0 c
  q _ := fullShare
  owed _ := 0

/-- Its arrays are the region-entry contents. -/
theorem dats_A (c : Dev nD) (w : Fin cfg0.W) : (dats m 0 c).A w = V m c (Pipeline.arrRef spec0 w) := by
  dsimp only [dats]

/-- What the body leaves, window by window. -/
theorem dats_after_in (c : Dev nD) (t : Fin cfg0.N) : (dats m 0 c).after 0 t = iblk m c 0 t := by dsimp only [dats]
theorem dats_after_out (c : Dev nD) (t : Fin cfg0.N) : (dats m 0 c).after 1 t = blockOut (iblk m c 0 t) := by dsimp only [dats]

/-- The input's staging buffer holds its block when the body starts. -/
theorem dats_before_in (c : Dev nD) (t : Fin cfg0.N) (d) : (dats m 0 c).before 0 t d = iblk m c 0 t :=
  before_in_of m (dats m 0 c) (dats_A m c 0) (dats_after_in m c) t d

/-! ## The body at a generic grid point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The input's buffer holds block `t`, so the body's run applies; the invariant and the core's dues pass through. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [dats_before_in]
  rw [show (dats m 0 c).Φ t.succ = (dats m 0 c).Φ t.castSucc from rfl,
    show (dats m 0 c).owesAt () t.succ = (dats m 0 c).owesAt () t.castSucc from rfl,
    dats_after_in, dats_after_out]
  iintro ⟨HΦ, Ho, ⟨%d0, H0⟩, ⟨%d1, H1⟩⟩
  iapply (body_run c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates without a fault; at the end every staged array holds what the
    proof data compute, and every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := post_sub) (hfresh := post_alloc) (hkeep := post_keeps)
    (hmain := main_around m Variants.none) (hA := dats_A m) (hΦ := fun _ _ => rfl)

/-- The frame: @main runs to its end and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Hand

end
-- ==== Proof.KIArray.lean ====
/-
  The region's result array as one function of its input array, at the ideal instance.

  Grid point t handles points 80000·t … 80000·t + 79999: its input block is columns of that range of the [7, N] input,
  all seven rows, and its output block the same columns of the [6, N] result, all six rows. A point's six results
  depend only on that point's seven input channels (`colFun`). So what grid point t writes back is block t of the
  whole-array function `regionOut` of the input array; the hundred blocks tile the result array; hence the array ends
  holding `regionOut` of the input array. The one fact about the body used here — what its output block holds at
  (row, column) — is taken as a hypothesis.
-/
import proofs.«159295_j21534966022500_2_alg».proof.Proof.KIFrame
import proofs.«159295_j21534966022500_2_alg».proof.Proof.CovSpec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- Which entry (i, k) of the upper triangle result row r holds. -/
def upI : Fin 6 → Fin 3 := ![0, 0, 0, 1, 1, 2]
def upK : Fin 6 → Fin 3 := ![0, 1, 2, 1, 2, 2]

/-- A point's six upper-triangle entries from its seven raw channels: three scales, then the quaternion. -/
def colFun (col : Fin 7 → EReal) (r : Fin 6) : EReal :=
  Cert.Cov.tri
    (Cert.Cov.rotA (Cert.Cov.unit (fun k : Fin 4 => col ⟨k.val + 3, by omega⟩) 0) (Cert.Cov.unit (fun k : Fin 4 => col ⟨k.val + 3, by omega⟩) 1)
      (Cert.Cov.unit (fun k : Fin 4 => col ⟨k.val + 3, by omega⟩) 2) (Cert.Cov.unit (fun k : Fin 4 => col ⟨k.val + 3, by omega⟩) 3))
    (fun j : Fin 3 => Ideal.exp (col ⟨j.val, by omega⟩)) (upI r) (upK r)

/-- The region's result array from its input array: `colFun` point by point. -/
def regionOut (X : S7x8000000.Idx → EReal) : S6x8000000.Idx → EReal := fun i =>
  colFun (fun r' : Fin 7 => X (ix2 (n0 := 7) (n1 := 8000000) r' ⟨(i 1).val, (i 1).isLt⟩)) ⟨(i 0).val, (i 0).isLt⟩

/-- What the body's output block holds at (row, column), as a statement about the body alone. -/
def BlockFact : Prop :=
  ∀ (x : FVec Ideal S7x80000 .f32) (r : Fin 6) (l : Fin 80000),
    blockOut (F := Ideal) x (ix2 (n0 := 6) (n1 := 80000) r l) = colFun (fun r' : Fin 7 => x (ix2 (n0 := 7) (n1 := 80000) r' l)) r

/-- A block of the input that is columns T·80000 … of an array gives an output block that is the same columns of
    `regionOut` of that array. -/
theorem block_core (hblk : BlockFact) (X : S7x8000000.Idx → EReal) (xin : FVec Ideal S7x80000 .f32) (T : Nat) (hT : T < 100)
    (hin : ∀ (r : Fin 7) (l : Fin 80000), xin (ix2 (n0 := 7) (n1 := 80000) r l) = X (ix2 (n0 := 7) (n1 := 8000000) r ⟨T * 80000 + l.val, by omega⟩))
    (j : S6x80000.Idx) (i : S6x8000000.Idx) (h0 : (i 0).val = (j 0).val) (h1 : (i 1).val = T * 80000 + (j 1).val) :
    blockOut (F := Ideal) xin j = regionOut X i := by
  obtain ⟨r, l, rfl⟩ : ∃ (r : Fin 6) (l : Fin 80000), j = ix2 r l := ⟨j 0, j 1, eq_ix2 j⟩
  rw [hblk xin r l]
  unfold regionOut
  have e0 : (⟨(i 0).val, (i 0).isLt⟩ : Fin 6) = r := Fin.ext h0
  have e1 : (⟨(i 1).val, (i 1).isLt⟩ : Fin 8000000) = ⟨T * 80000 + l.val, by omega⟩ := Fin.ext h1
  rw [e0, e1]
  exact congrArg (fun f => colFun f r) (funext fun r' => hin r' l)

variable (m : (ℓ : Loc nD τ sig) → Buf (Elt Ideal) ℓ)

/-- The two windows' block indices at grid point t: row block 0, column block t. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

theorem point_lt (t : Fin cfg0.N) : t.val < 100 := by
  have h : t.val < grid0.N := t.isLt
  rw [N_0] at h
  exact h

/-- The input window's block at grid point t is columns t·80000 … of the region's input array. -/
theorem block_in (c : Dev nD) (t : Fin cfg0.N) (r : Fin 7) (l : Fin 80000) :
    iblk m c 0 t (ix2 (n0 := 7) (n1 := 80000) r l)
      = V m c main_v1 (ix2 (n0 := 7) (n1 := 8000000) r ⟨t.val * 80000 + l.val, by have := point_lt t; omega⟩) := by
  unfold iblk
  show V m c main_v1 (((cfg0.win 0).blk t).view.emb (ix2 (n0 := 7) (n1 := 80000) r l)) = _
  refine congrArg _ (funext fun a => Fin.ext ?_)
  obtain ⟨e0, e1, -, -⟩ := idx_facts t
  match a with
  | ⟨0, _⟩ => show win0_0.index t (0 : Fin 2) * 7 + 1 * r.val = r.val; rw [e0]; omega
  | ⟨1, _⟩ => show win0_0.index t (1 : Fin 2) * 80000 + 1 * l.val = t.val * 80000 + l.val; rw [e1]; omega

/-- What grid point t writes back is block t of `regionOut` of the region's input array. -/
theorem flushed_eq (hblk : BlockFact) (c : Dev nD) (t : Fin cfg0.N) :
    (dats m 0 c).flushed 1 t = ((cfg0.win 1).blk t).view.read (Elt Ideal) (regionOut (V m c main_v1)) := by
  show (cfg0.win 1).cut (grid0.coords t) ((dats m 0 c).after 1 t) = _
  rw [dats_after_out]
  funext j
  obtain ⟨-, -, e2, e3⟩ := idx_facts t
  exact block_core hblk (V m c main_v1) (iblk m c 0 t) t.val (point_lt t) (block_in m c t) j (((cfg0.win 1).blk t).view.emb j)
    (by show win0_1.index t (0 : Fin 2) * 6 + 1 * (j 0).val = (j 0).val; rw [e2]; omega)
    (by show win0_1.index t (1 : Fin 2) * 80000 + 1 * (j 1).val = t.val * 80000 + (j 1).val; rw [e3]; omega)

/-- An index of the result array is in grid point t's block iff each coordinate is in the block's range. -/
theorem mem_blk (t : Fin cfg0.N) (i : S6x8000000.Idx) :
    i ∈ ((cfg0.win 1).blk t).view.set ↔ ∀ a : Fin 2, win0_1.index t a * S6x80000.size a ≤ (i a).val ∧ (i a).val < win0_1.index t a * S6x80000.size a + S6x80000.size a := by
  show i ∈ ((View.whole main_v2).slice (win0_1.rect t)).set ↔ _
  rw [View.set_slice_whole, Rect.mem_set_unit]
  exact Iff.rfl

/-- Every index of the result array is in the block of the grid point its column falls in. -/
theorem blocks_cover (i : S6x8000000.Idx) :
    ∃ t : Fin cfg0.N, (cfg0.win 1).flush t = true ∧ i ∈ ((cfg0.win 1).blk t).view.set := by
  have hi0 : (i 0).val < 6 := (i 0).isLt
  have hi1 : (i 1).val < 8000000 := (i 1).isLt
  have hN : cfg0.N = 100 := N_0
  let t : Fin cfg0.N := ⟨(i 1).val / 80000, by rw [hN]; omega⟩
  refine ⟨t, flush0_1 t, ?_⟩
  rw [mem_blk]
  obtain ⟨-, -, e2, e3⟩ := idx_facts t
  have ht : t.val = (i 1).val / 80000 := rfl
  intro a
  match a with
  | ⟨0, _⟩ => show win0_1.index t (0 : Fin 2) * 6 ≤ (i 0).val ∧ (i 0).val < win0_1.index t (0 : Fin 2) * 6 + 6; rw [e2]; omega
  | ⟨1, _⟩ => show win0_1.index t (1 : Fin 2) * 80000 ≤ (i 1).val ∧ (i 1).val < win0_1.index t (1 : Fin 2) * 80000 + 80000; rw [e3, ht]; omega

/-- The result array after the run is `regionOut` of the region's input array. -/
theorem region_array (hblk : BlockFact) (c : Dev nD) : (dats m 0 c).arrAt 1 cfg0.N = regionOut (V m c main_v1) :=
  (dats m 0 c).arrAt_eq_of_cover 1 (regionOut (V m c main_v1)) (fun t _ => flushed_eq m hblk c t) blocks_cover

end Cert.KernelIdeal.Hand

end
-- ==== Proof.LibNaryNine.lean ====
/-
  A host operation of nine operands, read at its own result buffer with each operand's contents at its own reference.

  The general statement gives the operands as a function of the position `k` (`fun k => F (xs k)`); under that binder
  a reference `![x0, …, x8] k` is no literal, so nothing further can be said about what each operand holds. For a
  literal family of nine references the same result is the operation's function at the nine contents listed one by one,
  and the rewriting of each operand's contents can go on.
-/
import Idealize.ShloMosaic.Lib.StableHlo.Run

noncomputable section

namespace Cert.LibNaryNine

open Idealize.ShloMosaic Idealize.ShloMosaic.StableHlo

variable {τ : Topo} {sig : RefSig} {Val : EltTy → Type}

/-- A nine-operand host operation's result, the operands' contents one by one (stated for a single simplification pass:
    the result reference is matched up to unfolding). -/
theorem nary9_result' {x0 x1 x2 x3 x4 x5 x6 x7 x8 y : Ref sig .tc}
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3))
          (Fin.cons (F (Proc.devRef .tc x4)) (Fin.cons (F (Proc.devRef .tc x5)) (Fin.cons (F (Proc.devRef .tc x6)) (Fin.cons (F (Proc.devRef .tc x7))
          (Fin.cons (F (Proc.devRef .tc x8)) (fun i => i.elim0)))))))))) := by
  rw [nary_result]; congr 1; funext k; fin_cases k <;> rfl

end Cert.LibNaryNine

end
-- ==== Proof.LibConcatCols.lean ====
/-
  A nine-column concatenation read at an index.

  Nine arrays of shape 8000000 × 1 laid side by side along the second axis make one array of shape 8000000 × 9. Its
  element at row `n` and column `j` is the element of the `j`-th piece at row `n` (and that piece's only column).
  The nine columns are the spans [0,1), [1,2), …, [8,9) of the joined axis, so column `j` falls in piece `j`, after `j`
  pieces of extent one, at offset `j - j = 0` inside it.
-/
import Idealize.ShloMosaic.Lib.Pipeline.Value
import Idealize.ShloMosaic.Lib.ValueIdx

namespace Cert.LibConcatCols

open Idealize.ShloMosaic Idealize.ShloMosaic.ValueIdx

/-- One column of eight million rows. -/
abbrev SN1 : Shape := ⟨2, ![8000000, 1]⟩
/-- Nine columns of eight million rows. -/
abbrev SN9 : Shape := ⟨2, ![8000000, 9]⟩

/-- Off the joined axis (the second one) a piece's index `(n, 0)` and the result's index `(n, j)` have the same
    coordinate: the row `n`. -/
theorem off_axis (n : Fin 8000000) (j : Fin 9) (hr : SN1.rank = SN9.rank) :
    ∀ b : Fin SN1.rank, b.cast hr ≠ (1 : Fin SN9.rank) →
      ((ix2 n (0 : Fin 1) : SN1.Idx) b).val = ((ix2 n j : SN9.Idx) (b.cast hr)).val := fun b =>
  match b with
  | ⟨0, _⟩ => fun _ => rfl
  | ⟨1, _⟩ => fun hb => absurd rfl hb

/-- **The nine-column concatenation at row `n`, column `j`** is the `j`-th piece at row `n`. -/
theorem concat9_apply {α : Type} (u0 u1 u2 u3 u4 u5 u6 u7 u8 : SN1.Idx → α)
    (h : Shape.Concatenates [SN1, SN1, SN1, SN1, SN1, SN1, SN1, SN1, SN1] SN9 1) (n : Fin 8000000) (j : Fin 9) :
    concatenate SN9 1 [⟨SN1, u0⟩, ⟨SN1, u1⟩, ⟨SN1, u2⟩, ⟨SN1, u3⟩, ⟨SN1, u4⟩, ⟨SN1, u5⟩, ⟨SN1, u6⟩, ⟨SN1, u7⟩, ⟨SN1, u8⟩] h (ix2 n j)
      = (![u0, u1, u2, u3, u4, u5, u6, u7, u8] j) (ix2 n (0 : Fin 1)) := by
  let xs : List ((s : Shape) × (s.Idx → α)) :=
    [⟨SN1, u0⟩, ⟨SN1, u1⟩, ⟨SN1, u2⟩, ⟨SN1, u3⟩, ⟨SN1, u4⟩, ⟨SN1, u5⟩, ⟨SN1, u6⟩, ⟨SN1, u7⟩, ⟨SN1, u8⟩]
  fin_cases j
  · exact concatenate_apply_piece (t := SN9) 1 xs h _ 0 (by show 0 < 9; decide) SN1 u0 rfl rfl 0 rfl (ix2 n 0) (off_axis n _ rfl) rfl
  · exact concatenate_apply_piece (t := SN9) 1 xs h _ 1 (by show 1 < 9; decide) SN1 u1 rfl rfl 1 rfl (ix2 n 0) (off_axis n _ rfl) rfl
  · exact concatenate_apply_piece (t := SN9) 1 xs h _ 2 (by show 2 < 9; decide) SN1 u2 rfl rfl 2 rfl (ix2 n 0) (off_axis n _ rfl) rfl
  · exact concatenate_apply_piece (t := SN9) 1 xs h _ 3 (by show 3 < 9; decide) SN1 u3 rfl rfl 3 rfl (ix2 n 0) (off_axis n _ rfl) rfl
  · exact concatenate_apply_piece (t := SN9) 1 xs h _ 4 (by show 4 < 9; decide) SN1 u4 rfl rfl 4 rfl (ix2 n 0) (off_axis n _ rfl) rfl
  · exact concatenate_apply_piece (t := SN9) 1 xs h _ 5 (by show 5 < 9; decide) SN1 u5 rfl rfl 5 rfl (ix2 n 0) (off_axis n _ rfl) rfl
  · exact concatenate_apply_piece (t := SN9) 1 xs h _ 6 (by show 6 < 9; decide) SN1 u6 rfl rfl 6 rfl (ix2 n 0) (off_axis n _ rfl) rfl
  · exact concatenate_apply_piece (t := SN9) 1 xs h _ 7 (by show 7 < 9; decide) SN1 u7 rfl rfl 7 rfl (ix2 n 0) (off_axis n _ rfl) rfl
  · exact concatenate_apply_piece (t := SN9) 1 xs h _ 8 (by show 8 < 9; decide) SN1 u8 rfl rfl 8 rfl (ix2 n 0) (off_axis n _ rfl) rfl

/-! The same, column by column: the index's column is a literal and the piece is named, so a use never has to look
    inside the vector of pieces. -/

theorem concat9_col0 {α : Type} (u0 u1 u2 u3 u4 u5 u6 u7 u8 : SN1.Idx → α)
    (h : Shape.Concatenates [SN1, SN1, SN1, SN1, SN1, SN1, SN1, SN1, SN1] SN9 1) (n : Fin 8000000) :
    concatenate SN9 1 [⟨SN1, u0⟩, ⟨SN1, u1⟩, ⟨SN1, u2⟩, ⟨SN1, u3⟩, ⟨SN1, u4⟩, ⟨SN1, u5⟩, ⟨SN1, u6⟩, ⟨SN1, u7⟩, ⟨SN1, u8⟩] h (ix2 n (0 : Fin 9))
      = u0 (ix2 n (0 : Fin 1)) :=
  concat9_apply u0 u1 u2 u3 u4 u5 u6 u7 u8 h n 0

theorem concat9_col1 {α : Type} (u0 u1 u2 u3 u4 u5 u6 u7 u8 : SN1.Idx → α)
    (h : Shape.Concatenates [SN1, SN1, SN1, SN1, SN1, SN1, SN1, SN1, SN1] SN9 1) (n : Fin 8000000) :
    concatenate SN9 1 [⟨SN1, u0⟩, ⟨SN1, u1⟩, ⟨SN1, u2⟩, ⟨SN1, u3⟩, ⟨SN1, u4⟩, ⟨SN1, u5⟩, ⟨SN1, u6⟩, ⟨SN1, u7⟩, ⟨SN1, u8⟩] h (ix2 n (1 : Fin 9))
      = u1 (ix2 n (0 : Fin 1)) :=
  concat9_apply u0 u1 u2 u3 u4 u5 u6 u7 u8 h n 1

theorem concat9_col2 {α : Type} (u0 u1 u2 u3 u4 u5 u6 u7 u8 : SN1.Idx → α)
    (h : Shape.Concatenates [SN1, SN1, SN1, SN1, SN1, SN1, SN1, SN1, SN1] SN9 1) (n : Fin 8000000) :
    concatenate SN9 1 [⟨SN1, u0⟩, ⟨SN1, u1⟩, ⟨SN1, u2⟩, ⟨SN1, u3⟩, ⟨SN1, u4⟩, ⟨SN1, u5⟩, ⟨SN1, u6⟩, ⟨SN1, u7⟩, ⟨SN1, u8⟩] h (ix2 n (2 : Fin 9))
      = u2 (ix2 n (0 : Fin 1)) :=
  concat9_apply u0 u1 u2 u3 u4 u5 u6 u7 u8 h n 2

theorem concat9_col3 {α : Type} (u0 u1 u2 u3 u4 u5 u6 u7 u8 : SN1.Idx → α)
    (h : Shape.Concatenates [SN1, SN1, SN1, SN1, SN1, SN1, SN1, SN1, SN1] SN9 1) (n : Fin 8000000) :
    concatenate SN9 1 [⟨SN1, u0⟩, ⟨SN1, u1⟩, ⟨SN1, u2⟩, ⟨SN1, u3⟩, ⟨SN1, u4⟩, ⟨SN1, u5⟩, ⟨SN1, u6⟩, ⟨SN1, u7⟩, ⟨SN1, u8⟩] h (ix2 n (3 : Fin 9))
      = u3 (ix2 n (0 : Fin 1)) :=
  concat9_apply u0 u1 u2 u3 u4 u5 u6 u7 u8 h n 3

theorem concat9_col4 {α : Type} (u0 u1 u2 u3 u4 u5 u6 u7 u8 : SN1.Idx → α)
    (h : Shape.Concatenates [SN1, SN1, SN1, SN1, SN1, SN1, SN1, SN1, SN1] SN9 1) (n : Fin 8000000) :
    concatenate SN9 1 [⟨SN1, u0⟩, ⟨SN1, u1⟩, ⟨SN1, u2⟩, ⟨SN1, u3⟩, ⟨SN1, u4⟩, ⟨SN1, u5⟩, ⟨SN1, u6⟩, ⟨SN1, u7⟩, ⟨SN1, u8⟩] h (ix2 n (4 : Fin 9))
      = u4 (ix2 n (0 : Fin 1)) :=
  concat9_apply u0 u1 u2 u3 u4 u5 u6 u7 u8 h n 4

theorem concat9_col5 {α : Type} (u0 u1 u2 u3 u4 u5 u6 u7 u8 : SN1.Idx → α)
    (h : Shape.Concatenates [SN1, SN1, SN1, SN1, SN1, SN1, SN1, SN1, SN1] SN9 1) (n : Fin 8000000) :
    concatenate SN9 1 [⟨SN1, u0⟩, ⟨SN1, u1⟩, ⟨SN1, u2⟩, ⟨SN1, u3⟩, ⟨SN1, u4⟩, ⟨SN1, u5⟩, ⟨SN1, u6⟩, ⟨SN1, u7⟩, ⟨SN1, u8⟩] h (ix2 n (5 : Fin 9))
      = u5 (ix2 n (0 : Fin 1)) :=
  concat9_apply u0 u1 u2 u3 u4 u5 u6 u7 u8 h n 5

theorem concat9_col6 {α : Type} (u0 u1 u2 u3 u4 u5 u6 u7 u8 : SN1.Idx → α)
    (h : Shape.Concatenates [SN1, SN1, SN1, SN1, SN1, SN1, SN1, SN1, SN1] SN9 1) (n : Fin 8000000) :
    concatenate SN9 1 [⟨SN1, u0⟩, ⟨SN1, u1⟩, ⟨SN1, u2⟩, ⟨SN1, u3⟩, ⟨SN1, u4⟩, ⟨SN1, u5⟩, ⟨SN1, u6⟩, ⟨SN1, u7⟩, ⟨SN1, u8⟩] h (ix2 n (6 : Fin 9))
      = u6 (ix2 n (0 : Fin 1)) :=
  concat9_apply u0 u1 u2 u3 u4 u5 u6 u7 u8 h n 6

theorem concat9_col7 {α : Type} (u0 u1 u2 u3 u4 u5 u6 u7 u8 : SN1.Idx → α)
    (h : Shape.Concatenates [SN1, SN1, SN1, SN1, SN1, SN1, SN1, SN1, SN1] SN9 1) (n : Fin 8000000) :
    concatenate SN9 1 [⟨SN1, u0⟩, ⟨SN1, u1⟩, ⟨SN1, u2⟩, ⟨SN1, u3⟩, ⟨SN1, u4⟩, ⟨SN1, u5⟩, ⟨SN1, u6⟩, ⟨SN1, u7⟩, ⟨SN1, u8⟩] h (ix2 n (7 : Fin 9))
      = u7 (ix2 n (0 : Fin 1)) :=
  concat9_apply u0 u1 u2 u3 u4 u5 u6 u7 u8 h n 7

theorem concat9_col8 {α : Type} (u0 u1 u2 u3 u4 u5 u6 u7 u8 : SN1.Idx → α)
    (h : Shape.Concatenates [SN1, SN1, SN1, SN1, SN1, SN1, SN1, SN1, SN1] SN9 1) (n : Fin 8000000) :
    concatenate SN9 1 [⟨SN1, u0⟩, ⟨SN1, u1⟩, ⟨SN1, u2⟩, ⟨SN1, u3⟩, ⟨SN1, u4⟩, ⟨SN1, u5⟩, ⟨SN1, u6⟩, ⟨SN1, u7⟩, ⟨SN1, u8⟩] h (ix2 n (8 : Fin 9))
      = u8 (ix2 n (0 : Fin 1)) :=
  concat9_apply u0 u1 u2 u3 u4 u5 u6 u7 u8 h n 8

end Cert.LibConcatCols
-- ==== Proof.KITail.lean ====
/-
  The host lines after the region, as one function of the region's result, and that function read at an index.

  The region's result is a [6, N] array: row r holds, for every point, entry (i, k) of the covariance's upper
  triangle, r = 0 … 5 for (0,0), (0,1), (0,2), (1,1), (1,2), (2,2). The host lines transpose it to [N, 6], cut out each
  of the six columns as an [N, 1] column, lay nine of them side by side in the order 0 1 2 / 1 3 4 / 2 4 5 — a
  symmetric matrix written row by row — and read the [N, 9] array as [N, 3, 3]. So entry (n, a, b) of the program's
  result is entry (rowOf a b, n) of the region's.
-/
import proofs.«159295_j21534966022500_2_alg».proof.Proof.KIFrame
import proofs.«159295_j21534966022500_2_alg».proof.Proof.LibNaryNine
import proofs.«159295_j21534966022500_2_alg».proof.Proof.LibConcatCols
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)

variable {F : FTy → Type} [FloatOps F]

/-! ## The re-laying as a function -/

/-- Column `k` of the transposed result as an [N,1] column: sliced out, its unit axis dropped and put back. -/
def colOf {α : Type} (Y : S6x8000000.Idx → α) (k : Fin 6) (hk : S8000000x6.Slices ![0, k.val] S8000000x1) : S8000000x1.Idx → α :=
  broadcastInDim S8000000x1 ![0] bcast_S8000000_S8000000x1_0
    (shapeCast S8000000 (extractStridedSlice S8000000x1 ![0, k.val] (transpose S8000000x6 [1, 0] Y transposes_S6x8000000_S8000000x6_1_0) hk)
      shapeCasts_S8000000x1_S8000000)

/-- The six rows re-laid as the nine entries of a symmetric matrix per point. -/
def relay {α : Type} (Y : S6x8000000.Idx → α) : S8000000x3x3.Idx → α :=
  shapeCast S8000000x3x3
    (concatenate S8000000x9 1
      [⟨S8000000x1, colOf Y 0 slices_S8000000x6_S8000000x1_0_0⟩, ⟨S8000000x1, colOf Y 1 slices_S8000000x6_S8000000x1_0_1⟩,
       ⟨S8000000x1, colOf Y 2 slices_S8000000x6_S8000000x1_0_2⟩, ⟨S8000000x1, colOf Y 1 slices_S8000000x6_S8000000x1_0_1⟩,
       ⟨S8000000x1, colOf Y 3 slices_S8000000x6_S8000000x1_0_3⟩, ⟨S8000000x1, colOf Y 4 slices_S8000000x6_S8000000x1_0_4⟩,
       ⟨S8000000x1, colOf Y 2 slices_S8000000x6_S8000000x1_0_2⟩, ⟨S8000000x1, colOf Y 4 slices_S8000000x6_S8000000x1_0_4⟩,
       ⟨S8000000x1, colOf Y 5 slices_S8000000x6_S8000000x1_0_5⟩]
      concatenates_S8000000x1_S8000000x1_S8000000x1_S8000000x1_S8000000x1_S8000000x1_S8000000x1_S8000000x1_S8000000x1_S8000000x9_d1)
    shapeCasts_S8000000x9_S8000000x3x3

/-- Which row of the region's result holds entry (a, b) of the symmetric matrix. -/
def rowOf (a b : Fin 3) : Fin 6 := (![![0, 1, 2], ![1, 3, 4], ![2, 4, 5]] : Fin 3 → Fin 3 → Fin 6) a b

/-! ## The re-laying read at an index -/

/-- Column `k` at point `n` is row `k` of the region's result at `n`. -/
theorem colOf_apply {α : Type} (Y : S6x8000000.Idx → α) (k : Fin 6) (hk : S8000000x6.Slices ![0, k.val] S8000000x1) (n : Fin 8000000) :
    colOf Y k hk (ix2 (n0 := 8000000) (n1 := 1) n 0) = Y (ix2 (n0 := 6) (n1 := 8000000) k n) := by
  unfold colOf
  refine (broadcastInDim_apply _ bcast_S8000000_S8000000x1_0 _ (ix2 (n0 := 8000000) (n1 := 1) n 0) (ix1 n) (fun a => ?_)).trans ?_
  · match a with
    | ⟨0, _⟩ => show n.val = if (8000000 : Nat) = 1 then 0 else n.val; rw [if_neg (by decide)]
  refine (shapeCast_apply _ shapeCasts_S8000000x1_S8000000 (ix1 n) (ix2 (n0 := 8000000) (n1 := 1) n 0) ?_).trans ?_
  · rw [Shape.rowMajor_val_two, Shape.rowMajor_val_one]
    show n.val * 1 + 0 = n.val
    omega
  refine (extractStridedSlice_apply ![0, k.val] _ hk (ix2 (n0 := 8000000) (n1 := 1) n 0) (ix2 (n0 := 8000000) (n1 := 6) n k) (fun a => ?_)).trans ?_
  · match a with
    | ⟨0, _⟩ => show n.val = 0 + n.val; omega
    | ⟨1, _⟩ => show k.val = k.val + 0; omega
  exact transpose_apply [1, 0] Y transposes_S6x8000000_S8000000x6_1_0 (ix2 (n0 := 8000000) (n1 := 6) n k) (ix2 (n0 := 6) (n1 := 8000000) k n)
    (fun b => match b with | ⟨0, _⟩ => rfl | ⟨1, _⟩ => rfl)

/-- Entry (n, a, b) of the re-laid array is entry (rowOf a b, n) of the region's result. -/
theorem relay_apply {α : Type} (Y : S6x8000000.Idx → α) (n : Fin 8000000) (a b : Fin 3) :
    relay Y (ix3 (n0 := 8000000) (n1 := 3) (n2 := 3) n a b) = Y (ix2 (n0 := 6) (n1 := 8000000) (rowOf a b) n) := by
  unfold relay
  refine (shapeCast_apply _ shapeCasts_S8000000x9_S8000000x3x3 (ix3 (n0 := 8000000) (n1 := 3) (n2 := 3) n a b)
    (ix2 (n0 := 8000000) (n1 := 9) n ⟨3 * a.val + b.val, by omega⟩) ?_).trans ?_
  · rw [Shape.rowMajor_val_two, Shape.rowMajor_val_three]
    show n.val * 9 + (3 * a.val + b.val) = (n.val * 3 + a.val) * 3 + b.val
    omega
  refine (Cert.LibConcatCols.concat9_apply _ _ _ _ _ _ _ _ _ _ n ⟨3 * a.val + b.val, by omega⟩).trans ?_
  fin_cases a <;> fin_cases b
  · exact colOf_apply Y 0 slices_S8000000x6_S8000000x1_0_0 n
  · exact colOf_apply Y 1 slices_S8000000x6_S8000000x1_0_1 n
  · exact colOf_apply Y 2 slices_S8000000x6_S8000000x1_0_2 n
  · exact colOf_apply Y 1 slices_S8000000x6_S8000000x1_0_1 n
  · exact colOf_apply Y 3 slices_S8000000x6_S8000000x1_0_3 n
  · exact colOf_apply Y 4 slices_S8000000x6_S8000000x1_0_4 n
  · exact colOf_apply Y 2 slices_S8000000x6_S8000000x1_0_2 n
  · exact colOf_apply Y 4 slices_S8000000x6_S8000000x1_0_4 n
  · exact colOf_apply Y 5 slices_S8000000x6_S8000000x1_0_5 n

/-! ## The lines after the region are the re-laying -/

variable (m : (ℓ : Loc nD τ sig) → Buf (Elt F) ℓ)

/-- The program's result after the later host lines is the re-laying of the region's result array. -/
theorem tail_eq (c : Dev nD) :
    Pipeline.afterTail₀ cfgs (dats m) 0 (V0 m) [hostOps1] c main_v26 = relay ((dats m 0 c).arrAt 1 cfg0.N) := by
  have hw := Pipeline.withArrays_arr (τ := τ) spec0 launch0.win.arr_inj c (V0 m c) (fun w => (dats m 0 c).arrAt w (cfgs 0).N) 1
  refine Eq.trans ?_ (congrArg relay hw)
  unfold Pipeline.afterTail₀
  show StableHlo.after hostOps1 _ (Proc.devRef .tc main_v26) = _
  simp (disch := decide) only [after_cons, after_nil, unary_result', reshape_result', Cert.LibNaryNine.nary9_result',
    unary_result_ne', reshape_result_ne', nary_result_ne']
  rfl

end Cert.KernelIdeal.Hand

end
-- ==== Proof.KIPre.lean ====
/-
  What the region finds in its input array.

  The two host lines before the region join the [N, 3] array of raw scales and the [N, 4] array of raw quaternions
  along the channel axis into [N, 7] and transpose it to [7, N]. So row j < 3 of the region's input at point n is raw
  scale j of point n, and row k + 3 is raw quaternion component k.
-/
import proofs.«159295_j21534966022500_2_alg».proof.Proof.KIHost
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]

/-- The two arrays joined along the channel axis, then transposed. -/
def joined {α : Type} (a0 : S8000000x3.Idx → α) (a1 : S8000000x4.Idx → α) : S7x8000000.Idx → α :=
  transpose S7x8000000 [1, 0]
    (concatenate S8000000x7 1 [⟨S8000000x3, a0⟩, ⟨S8000000x4, a1⟩] concatenates_S8000000x3_S8000000x4_S8000000x7_d1)
    transposes_S8000000x7_S7x8000000_1_0

/-- Row `j < 3` at point `n` is the first array's entry (n, j). -/
theorem joined_scale {α : Type} (a0 : S8000000x3.Idx → α) (a1 : S8000000x4.Idx → α) (j : Fin 3) (n : Fin 8000000) :
    joined a0 a1 (ix2 (n0 := 7) (n1 := 8000000) ⟨j.val, by omega⟩ n) = a0 (ix2 (n0 := 8000000) (n1 := 3) n j) := by
  unfold joined
  refine (transpose_apply [1, 0] _ transposes_S8000000x7_S7x8000000_1_0 (ix2 (n0 := 7) (n1 := 8000000) ⟨j.val, by omega⟩ n)
    (ix2 (n0 := 8000000) (n1 := 7) n ⟨j.val, by omega⟩) (fun b => match b with | ⟨0, _⟩ => rfl | ⟨1, _⟩ => rfl)).trans ?_
  exact concatenate_pair_apply_left 1 a0 a1 concatenates_S8000000x3_S8000000x4_S8000000x7_d1 _ rfl (ix2 (n0 := 8000000) (n1 := 3) n j)
    (fun b => match b with | ⟨0, _⟩ => rfl | ⟨1, _⟩ => rfl)

/-- Row `k + 3` at point `n` is the second array's entry (n, k). -/
theorem joined_quat {α : Type} (a0 : S8000000x3.Idx → α) (a1 : S8000000x4.Idx → α) (k : Fin 4) (n : Fin 8000000) :
    joined a0 a1 (ix2 (n0 := 7) (n1 := 8000000) ⟨k.val + 3, by omega⟩ n) = a1 (ix2 (n0 := 8000000) (n1 := 4) n k) := by
  unfold joined
  refine (transpose_apply [1, 0] _ transposes_S8000000x7_S7x8000000_1_0 (ix2 (n0 := 7) (n1 := 8000000) ⟨k.val + 3, by omega⟩ n)
    (ix2 (n0 := 8000000) (n1 := 7) n ⟨k.val + 3, by omega⟩) (fun b => match b with | ⟨0, _⟩ => rfl | ⟨1, _⟩ => rfl)).trans ?_
  exact concatenate_pair_apply_right 1 a0 a1 concatenates_S8000000x3_S8000000x4_S8000000x7_d1 _ rfl rfl (ix2 (n0 := 8000000) (n1 := 4) n k)
    (fun b hb => match b with
      | ⟨0, _⟩ => rfl
      | ⟨1, _⟩ => absurd rfl hb)
    (by show k.val + 3 = k.val + 3; rfl)

variable (m : (ℓ : Loc nD τ sig) → Buf (Elt F) ℓ)

/-- The region's input array is the two argument arrays joined and transposed. -/
theorem V_input (c : Dev nD) :
    (V m c main_v1 : S7x8000000.Idx → Elt F .f32)
      = joined (m ((c : Thread nD τ).loc main_arg0)) (m ((c : Thread nD τ).loc main_arg1)) := by
  show StableHlo.after hostOps0 (fun b => m (c, b)) (Proc.devRef .tc main_v1) = _
  after_results
  rfl

end Cert.KernelIdeal.Hand

end
-- ==== Proof.KIPoint.lean ====
/-
  The kernel body's six stored rows, read at an index, over the extended reals.

  The body loads rows 0–2 of its input block (the raw scales `s`) and rows 3–6 (the raw quaternion `q`). Column by column it
  takes `e j = exp (s j)`, divides the quaternion by `max (√(∑ k, q k · q k)) ε` (the sum over the four rows is the one
  reduction in the body; everything else is element by element), forms the nine rotation entries as `2 · (x · y)` sums and
  differences, and stores, as row `r` of its output block, entry `(triI r, triK r)` of the upper triangle
  `∑ j, (R i j · R k j) · (e j · e j)`, the three terms added left to right. Here each step is read at column `l`, then the six rows,
  then the output block the six stores leave (`blockOut_apply`).
-/
import proofs.«159295_j21534966022500_2_alg».proof.Proof.KIBody
import proofs.«159295_j21534966022500_2_alg».proof.Proof.CovSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Point

open Cert.KernelIdeal Cert.KernelIdeal.Gen Cert.KernelIdeal.Hand Idealize.ShloMosaic Idealize.ShloMosaic.ValueIdx

/-- Which entry (i, k) of the upper triangle output row r holds. -/
def triI : Fin 6 → Fin 3 := ![0, 0, 0, 1, 1, 2]
def triK : Fin 6 → Fin 3 := ![0, 1, 2, 1, 2, 2]
/-- Column l of an input block: its raw scales (rows 0–2) and its raw quaternion (rows 3–6). -/
def scaleOf (x : FVec Ideal S7x80000 .f32) (l : Fin 80000) (j : Fin 3) : EReal := x (ix2 (n0 := 7) (n1 := 80000) ⟨j.val, by omega⟩ l)
def quatOf (x : FVec Ideal S7x80000 .f32) (l : Fin 80000) (k : Fin 4) : EReal := x (ix2 (n0 := 7) (n1 := 80000) ⟨k.val + 3, by omega⟩ l)

theorem ld_scale (x : FVec Ideal S7x80000 .f32) (j : Fin 3) (l : Fin 80000) :
    View.ld (Val := Elt Ideal) (e' := .f32) x rScale (ix2 (n0 := 3) (n1 := 80000) j l) = scaleOf x l j := by
  show x (rScale.idx (ix2 j l)) = x (ix2 ⟨j.val, _⟩ l)
  refine congrArg x (funext fun a => Fin.ext ?_)
  match a with
  | ⟨0, _⟩ => show 0 + 1 * j.val = j.val; omega
  | ⟨1, _⟩ => show 0 + 1 * l.val = l.val; omega

theorem ld_quat (x : FVec Ideal S7x80000 .f32) (k : Fin 4) (l : Fin 80000) :
    View.ld (Val := Elt Ideal) (e' := .f32) x rQuat (ix2 (n0 := 4) (n1 := 80000) k l) = quatOf x l k := by
  show x (rQuat.idx (ix2 k l)) = x (ix2 ⟨k.val + 3, _⟩ l)
  refine congrArg x (funext fun a => Fin.ext ?_)
  match a with
  | ⟨0, _⟩ => show 3 + 1 * k.val = k.val + 3; omega
  | ⟨1, _⟩ => show 0 + 1 * l.val = l.val; omega

/-! ## The payloads at an index -/

/-- Column `l` of the two loads. -/
def scol (v0 : FVec Ideal S3x80000 .f32) (l : Fin 80000) : Fin 3 → EReal := fun j => v0 (ix2 (n0 := 3) (n1 := 80000) j l)
def qcol (v2 : FVec Ideal S4x80000 .f32) (l : Fin 80000) : Fin 4 → EReal := fun k => v2 (ix2 (n0 := 4) (n1 := 80000) k l)

/-- A square root at an index is that of the element. -/
theorem sqrt_apply {s : Shape} {φ : FTy} (a : FVec Ideal s φ) (i : s.Idx) : sqrt a i = Ideal.sqrt (a i) := rfl

section Payloads
variable (v0 : FVec Ideal S3x80000 .f32) (v2 : FVec Ideal S4x80000 .f32) (l : Fin 80000)

theorem pay1_apply (j : Fin 3) : k0_pay1 (F := Ideal) v0 (ix2 (n0 := 3) (n1 := 80000) j l) = Ideal.exp (scol v0 l j) := by
  unfold k0_pay1
  simp only [shapeCast_self]
  rfl

/-- The source index over column `l` with row `k` inserted is `(k, l)`. -/
theorem lift_ix (k : Fin 4) :
    reduces_S4x80000_S80000.lift (ix1 (n := 80000) l) k = ix2 (n0 := 4) (n1 := 80000) k l := by
  funext a; refine Fin.ext ?_
  match a with
  | ⟨0, _⟩ => rfl
  | ⟨1, _⟩ => rfl

/-- The sum over the four rows of the squares, at column `l`. -/
theorem sumsq_apply (hφ : FKind.Formats .f32) (hacc : (0x00000000#32 : BitVec 32) = 0x00000000#32) :
    multiReduction (F := Ideal) .add [0] S80000 (mulf v2 v2) 0x00000000#32 reduces_S4x80000_S80000 hφ hacc (ix1 (n := 80000) l)
      = ∑ k : Fin 4, qcol v2 l k * qcol v2 l k := by
  refine (Ideal.multiReduction_add_single (mulf v2 v2) 0x00000000#32 reduces_S4x80000_S80000 hφ hacc (ix1 l)).trans ?_
  refine Finset.sum_congr rfl fun k _ => ?_
  exact congrArg (mulf v2 v2) (lift_ix l k)

theorem pay2_apply (k : Fin 4) : k0_pay2 (F := Ideal) v2 (ix2 (n0 := 4) (n1 := 80000) k l) = Cov.unit (qcol v2 l) k := by
  unfold k0_pay2
  simp only [shapeCast_self]
  rw [divf_apply, broadcastTo_1b_ab_apply, maximumf_apply, sqrt_apply, shapeCast_a_1a_apply, sumsq_apply, broadcast_apply, Ideal.ofBits_def]
  rfl

end Payloads

section Payloads2
variable (v0 : FVec Ideal S3x80000 .f32) (v2 : FVec Ideal S4x80000 .f32) (l : Fin 80000)

/-- The unit quaternion, the scale and the rotation matrix of column `l`. -/
abbrev uq : Fin 4 → EReal := Cov.unit (qcol v2 l)
abbrev es : Fin 3 → EReal := fun j => Ideal.exp (scol v0 l j)
abbrev rotU : Fin 3 → Fin 3 → EReal := Cov.rotA (uq v2 l 0) (uq v2 l 1) (uq v2 l 2) (uq v2 l 3)

/-! Row `c` of the unit quaternion. -/
theorem pay3_apply : k0_pay3 (F := Ideal) v2 (ix2 (0 : Fin 1) l) = uq v2 l 0 :=
  (slice2_axis0_apply 0 (k0_pay2 (F := Ideal) v2) slices_S4x80000_o0_0_S1x80000 (0 : Fin 1) l (0 : Fin 4) rfl).trans (pay2_apply v2 l 0)
theorem pay4_apply : k0_pay4 (F := Ideal) v2 (ix2 (0 : Fin 1) l) = uq v2 l 1 :=
  (slice2_axis0_apply 1 (k0_pay2 (F := Ideal) v2) slices_S4x80000_o1_0_S1x80000 (0 : Fin 1) l (1 : Fin 4) rfl).trans (pay2_apply v2 l 1)
theorem pay5_apply : k0_pay5 (F := Ideal) v2 (ix2 (0 : Fin 1) l) = uq v2 l 2 :=
  (slice2_axis0_apply 2 (k0_pay2 (F := Ideal) v2) slices_S4x80000_o2_0_S1x80000 (0 : Fin 1) l (2 : Fin 4) rfl).trans (pay2_apply v2 l 2)
theorem pay6_apply : k0_pay6 (F := Ideal) v2 (ix2 (0 : Fin 1) l) = uq v2 l 3 :=
  (slice2_axis0_apply 3 (k0_pay2 (F := Ideal) v2) slices_S4x80000_o3_0_S1x80000 (0 : Fin 1) l (3 : Fin 4) rfl).trans (pay2_apply v2 l 3)

/-! The squared scales. -/
theorem pay7_apply : k0_pay7 (F := Ideal) v0 (ix2 (0 : Fin 1) l) = es v0 l 0 * es v0 l 0 :=
  have e := (slice2_axis0_apply 0 (k0_pay1 (F := Ideal) v0) slices_S3x80000_o0_0_S1x80000 (0 : Fin 1) l (0 : Fin 3) rfl).trans (pay1_apply v0 l 0)
  (mulf_apply _ _ _).trans (congrArg₂ (· * ·) e e)
theorem pay8_apply : k0_pay8 (F := Ideal) v0 (ix2 (0 : Fin 1) l) = es v0 l 1 * es v0 l 1 :=
  have e := (slice2_axis0_apply 1 (k0_pay1 (F := Ideal) v0) slices_S3x80000_o1_0_S1x80000 (0 : Fin 1) l (1 : Fin 3) rfl).trans (pay1_apply v0 l 1)
  (mulf_apply _ _ _).trans (congrArg₂ (· * ·) e e)
theorem pay9_apply : k0_pay9 (F := Ideal) v0 (ix2 (0 : Fin 1) l) = es v0 l 2 * es v0 l 2 :=
  have e := (slice2_axis0_apply 2 (k0_pay1 (F := Ideal) v0) slices_S3x80000_o2_0_S1x80000 (0 : Fin 1) l (2 : Fin 3) rfl).trans (pay1_apply v0 l 2)
  (mulf_apply _ _ _).trans (congrArg₂ (· * ·) e e)

/-! The products of two components of the unit quaternion. -/
theorem pay10_apply : k0_pay10 (F := Ideal) v2 (ix2 (0 : Fin 1) l) = uq v2 l 1 * uq v2 l 1 :=
  (mulf_apply (k0_pay4 (F := Ideal) v2) (k0_pay4 (F := Ideal) v2) _).trans (congrArg₂ (· * ·) (pay4_apply v2 l) (pay4_apply v2 l))
theorem pay11_apply : k0_pay11 (F := Ideal) v2 (ix2 (0 : Fin 1) l) = uq v2 l 2 * uq v2 l 2 :=
  (mulf_apply (k0_pay5 (F := Ideal) v2) (k0_pay5 (F := Ideal) v2) _).trans (congrArg₂ (· * ·) (pay5_apply v2 l) (pay5_apply v2 l))
theorem pay12_apply : k0_pay12 (F := Ideal) v2 (ix2 (0 : Fin 1) l) = uq v2 l 3 * uq v2 l 3 :=
  (mulf_apply (k0_pay6 (F := Ideal) v2) (k0_pay6 (F := Ideal) v2) _).trans (congrArg₂ (· * ·) (pay6_apply v2 l) (pay6_apply v2 l))
theorem pay13_apply : k0_pay13 (F := Ideal) v2 (ix2 (0 : Fin 1) l) = uq v2 l 1 * uq v2 l 2 :=
  (mulf_apply (k0_pay4 (F := Ideal) v2) (k0_pay5 (F := Ideal) v2) _).trans (congrArg₂ (· * ·) (pay4_apply v2 l) (pay5_apply v2 l))
theorem pay14_apply : k0_pay14 (F := Ideal) v2 (ix2 (0 : Fin 1) l) = uq v2 l 1 * uq v2 l 3 :=
  (mulf_apply (k0_pay4 (F := Ideal) v2) (k0_pay6 (F := Ideal) v2) _).trans (congrArg₂ (· * ·) (pay4_apply v2 l) (pay6_apply v2 l))
theorem pay15_apply : k0_pay15 (F := Ideal) v2 (ix2 (0 : Fin 1) l) = uq v2 l 2 * uq v2 l 3 :=
  (mulf_apply (k0_pay5 (F := Ideal) v2) (k0_pay6 (F := Ideal) v2) _).trans (congrArg₂ (· * ·) (pay5_apply v2 l) (pay6_apply v2 l))
theorem pay16_apply : k0_pay16 (F := Ideal) v2 (ix2 (0 : Fin 1) l) = uq v2 l 0 * uq v2 l 1 :=
  (mulf_apply (k0_pay3 (F := Ideal) v2) (k0_pay4 (F := Ideal) v2) _).trans (congrArg₂ (· * ·) (pay3_apply v2 l) (pay4_apply v2 l))
theorem pay17_apply : k0_pay17 (F := Ideal) v2 (ix2 (0 : Fin 1) l) = uq v2 l 0 * uq v2 l 2 :=
  (mulf_apply (k0_pay3 (F := Ideal) v2) (k0_pay5 (F := Ideal) v2) _).trans (congrArg₂ (· * ·) (pay3_apply v2 l) (pay5_apply v2 l))
theorem pay18_apply : k0_pay18 (F := Ideal) v2 (ix2 (0 : Fin 1) l) = uq v2 l 0 * uq v2 l 3 :=
  (mulf_apply (k0_pay3 (F := Ideal) v2) (k0_pay6 (F := Ideal) v2) _).trans (congrArg₂ (· * ·) (pay3_apply v2 l) (pay6_apply v2 l))

end Payloads2

/-! The rotation matrix's entries, spelt out. -/
section RotA
variable (w x y z : EReal)
theorem rotA_00 : Cov.rotA w x y z 0 0 = Cov.one - Cov.two * (y * y) - Cov.two * (z * z) := rfl
theorem rotA_01 : Cov.rotA w x y z 0 1 = Cov.two * (x * y) - Cov.two * (w * z) := rfl
theorem rotA_02 : Cov.rotA w x y z 0 2 = Cov.two * (x * z) + Cov.two * (w * y) := rfl
theorem rotA_10 : Cov.rotA w x y z 1 0 = Cov.two * (x * y) + Cov.two * (w * z) := rfl
theorem rotA_11 : Cov.rotA w x y z 1 1 = Cov.one - Cov.two * (x * x) - Cov.two * (z * z) := rfl
theorem rotA_12 : Cov.rotA w x y z 1 2 = Cov.two * (y * z) - Cov.two * (w * x) := rfl
theorem rotA_20 : Cov.rotA w x y z 2 0 = Cov.two * (x * z) - Cov.two * (w * y) := rfl
theorem rotA_21 : Cov.rotA w x y z 2 1 = Cov.two * (y * z) + Cov.two * (w * x) := rfl
theorem rotA_22 : Cov.rotA w x y z 2 2 = Cov.one - Cov.two * (x * x) - Cov.two * (y * y) := rfl
end RotA

section Rows
variable (v0 : FVec Ideal S3x80000 .f32) (v2 : FVec Ideal S4x80000 .f32) (l : Fin 80000)

/-! The later payloads are arithmetic of their arguments, element by element. -/
theorem pay21_eq (a b : FVec Ideal S1x80000 .f32) (s : Ideal .f32) (i : S1x80000.Idx) :
    k0_pay21 (F := Ideal) a b s i = s * a i + Cov.two * b i := rfl
theorem pay22_eq (a b : FVec Ideal S1x80000 .f32) (i : S1x80000.Idx) :
    k0_pay22 (F := Ideal) a b i = Cov.two * a i + Cov.two * b i := rfl
theorem pay23_eq (a b : FVec Ideal S1x80000 .f32) (i : S1x80000.Idx) :
    k0_pay23 (F := Ideal) a b i = Cov.one - Cov.two * a i - Cov.two * b i := rfl
theorem pay24_eq (a b : FVec Ideal S1x80000 .f32) (i : S1x80000.Idx) :
    k0_pay24 (F := Ideal) a b i = Cov.two * a i - Cov.two * b i := rfl
theorem pay25_eq (a b : FVec Ideal S1x80000 .f32) (i : S1x80000.Idx) :
    k0_pay25 (F := Ideal) a b i = Cov.two * a i - Cov.two * b i := rfl
theorem pay26_eq (a b : FVec Ideal S1x80000 .f32) (i : S1x80000.Idx) :
    k0_pay26 (F := Ideal) a b i = Cov.two * a i + Cov.two * b i := rfl
theorem pay27_eq (a b : FVec Ideal S1x80000 .f32) (i : S1x80000.Idx) :
    k0_pay27 (F := Ideal) a b i = Cov.one - Cov.two * a i - Cov.two * b i := rfl
theorem pay19_eq (i : S1x80000.Idx) :
    k0_pay19 (F := Ideal) v2 i = Cov.one - Cov.two * k0_pay11 (F := Ideal) v2 i - Cov.two * k0_pay12 (F := Ideal) v2 i :=
  pay23_eq (k0_pay11 (F := Ideal) v2) (k0_pay12 (F := Ideal) v2) i
theorem pay20_eq (i : S1x80000.Idx) :
    k0_pay20 (F := Ideal) v2 i = Cov.two * k0_pay13 (F := Ideal) v2 i - Cov.two * k0_pay18 (F := Ideal) v2 i :=
  pay24_eq (k0_pay13 (F := Ideal) v2) (k0_pay18 (F := Ideal) v2) i
theorem pay28_eq (a b c d : FVec Ideal S1x80000 .f32) (i : S1x80000.Idx) :
    k0_pay28 (F := Ideal) a b c d i = c i * c i * a i + d i * d i * b i := rfl
theorem pay29_eq (a b : FVec Ideal S1x80000 .f32) (s : Ideal .f32) (i : S1x80000.Idx) :
    k0_pay29 (F := Ideal) a b s i = k0_pay21 (F := Ideal) a b s i * k0_pay21 (F := Ideal) a b s i := rfl
theorem pay30_eq (a b c : FVec Ideal S1x80000 .f32) (i : S1x80000.Idx) :
    k0_pay30 (F := Ideal) a b c i = b i + c i * a i := rfl
theorem pay31_eq (a b c d e f g h k : FVec Ideal S1x80000 .f32) (i : S1x80000.Idx) :
    k0_pay31 (F := Ideal) a b c d e f g h k i = d i * g i * a i + e i * h i * b i + f i * k i * c i := rfl
theorem pay32_eq (a b c d e f g h k : FVec Ideal S1x80000 .f32) (i : S1x80000.Idx) :
    k0_pay32 (F := Ideal) a b c d e f g h k i = d i * g i * a i + e i * h i * b i + f i * k i * c i := rfl
theorem pay33_eq (a b c d e f : FVec Ideal S1x80000 .f32) (i : S1x80000.Idx) :
    k0_pay33 (F := Ideal) a b c d e f i = d i * d i * a i + e i * e i * b i + f i * f i * c i := rfl
theorem pay34_eq (a b c d e f g h k : FVec Ideal S1x80000 .f32) (i : S1x80000.Idx) :
    k0_pay34 (F := Ideal) a b c d e f g h k i = d i * g i * a i + e i * h i * b i + f i * k i * c i := rfl
theorem pay35_eq (a b c d e f : FVec Ideal S1x80000 .f32) (i : S1x80000.Idx) :
    k0_pay35 (F := Ideal) a b c d e f i = d i * d i * a i + e i * e i * b i + f i * f i * c i := rfl

/-! The nine rotation entries of column `l`. -/
theorem R00_apply : R00 (F := Ideal) v2 (ix2 (0 : Fin 1) l) = rotU v2 l 0 0 :=
  (pay19_eq v2 _).trans ((congrArg₂ (fun a b => Cov.one - Cov.two * a - Cov.two * b) (pay11_apply v2 l) (pay12_apply v2 l)).trans (rotA_00 _ _ _ _).symm)
theorem R01_apply : R01 (F := Ideal) v2 (ix2 (0 : Fin 1) l) = rotU v2 l 0 1 :=
  (pay20_eq v2 _).trans ((congrArg₂ (fun a b => Cov.two * a - Cov.two * b) (pay13_apply v2 l) (pay18_apply v2 l)).trans (rotA_01 _ _ _ _).symm)
theorem pay21_apply : k0_pay21 (F := Ideal) (k0_pay14 (F := Ideal) v2) (k0_pay17 (F := Ideal) v2) (lit2 (F := Ideal)) (ix2 (0 : Fin 1) l) = rotU v2 l 0 2 :=
  (pay21_eq _ _ _ _).trans ((congrArg₂ (fun a b => Cov.two * a + Cov.two * b) (pay14_apply v2 l) (pay17_apply v2 l)).trans (rotA_02 _ _ _ _).symm)
theorem R02_apply : R02 (F := Ideal) v2 (ix2 (0 : Fin 1) l) = rotU v2 l 0 2 := pay21_apply v2 l
theorem R10_apply : R10 (F := Ideal) v2 (ix2 (0 : Fin 1) l) = rotU v2 l 1 0 :=
  (pay22_eq _ _ _).trans ((congrArg₂ (fun a b => Cov.two * a + Cov.two * b) (pay13_apply v2 l) (pay18_apply v2 l)).trans (rotA_10 _ _ _ _).symm)
theorem R11_apply : R11 (F := Ideal) v2 (ix2 (0 : Fin 1) l) = rotU v2 l 1 1 :=
  (pay23_eq _ _ _).trans ((congrArg₂ (fun a b => Cov.one - Cov.two * a - Cov.two * b) (pay10_apply v2 l) (pay12_apply v2 l)).trans (rotA_11 _ _ _ _).symm)
theorem R12_apply : R12 (F := Ideal) v2 (ix2 (0 : Fin 1) l) = rotU v2 l 1 2 :=
  (pay24_eq _ _ _).trans ((congrArg₂ (fun a b => Cov.two * a - Cov.two * b) (pay15_apply v2 l) (pay16_apply v2 l)).trans (rotA_12 _ _ _ _).symm)
theorem R20_apply : R20 (F := Ideal) v2 (ix2 (0 : Fin 1) l) = rotU v2 l 2 0 :=
  (pay25_eq _ _ _).trans ((congrArg₂ (fun a b => Cov.two * a - Cov.two * b) (pay14_apply v2 l) (pay17_apply v2 l)).trans (rotA_20 _ _ _ _).symm)
theorem R21_apply : R21 (F := Ideal) v2 (ix2 (0 : Fin 1) l) = rotU v2 l 2 1 :=
  (pay26_eq _ _ _).trans ((congrArg₂ (fun a b => Cov.two * a + Cov.two * b) (pay15_apply v2 l) (pay16_apply v2 l)).trans (rotA_21 _ _ _ _).symm)
theorem R22_apply : R22 (F := Ideal) v2 (ix2 (0 : Fin 1) l) = rotU v2 l 2 2 :=
  (pay27_eq _ _ _).trans ((congrArg₂ (fun a b => Cov.one - Cov.two * a - Cov.two * b) (pay10_apply v2 l) (pay11_apply v2 l)).trans (rotA_22 _ _ _ _).symm)

theorem sq0_apply : sq0 (F := Ideal) v0 (ix2 (0 : Fin 1) l) = es v0 l 0 * es v0 l 0 := pay7_apply v0 l
theorem sq1_apply : sq1 (F := Ideal) v0 (ix2 (0 : Fin 1) l) = es v0 l 1 * es v0 l 1 := pay8_apply v0 l
theorem sq2_apply : sq2 (F := Ideal) v0 (ix2 (0 : Fin 1) l) = es v0 l 2 * es v0 l 2 := pay9_apply v0 l

/-! The six stored rows at column `l`: the upper triangle of the covariance. -/
theorem row0_apply : row0 (F := Ideal) v0 v2 (ix2 (0 : Fin 1) l) = Cov.tri (rotU v2 l) (es v0 l) 0 0 := by
  unfold row0
  rw [pay30_eq, pay28_eq, pay29_eq, pay21_apply, sq0_apply, sq1_apply, sq2_apply, R00_apply, R01_apply]
  rfl
theorem row1_apply : row1 (F := Ideal) v0 v2 (ix2 (0 : Fin 1) l) = Cov.tri (rotU v2 l) (es v0 l) 0 1 := by
  unfold row1
  rw [pay31_eq, sq0_apply, sq1_apply, sq2_apply, R00_apply, R01_apply, R02_apply, R10_apply, R11_apply, R12_apply]
  rfl
theorem row2_apply : row2 (F := Ideal) v0 v2 (ix2 (0 : Fin 1) l) = Cov.tri (rotU v2 l) (es v0 l) 0 2 := by
  unfold row2
  rw [pay32_eq, sq0_apply, sq1_apply, sq2_apply, R00_apply, R01_apply, R02_apply, R20_apply, R21_apply, R22_apply]
  rfl
theorem row3_apply : row3 (F := Ideal) v0 v2 (ix2 (0 : Fin 1) l) = Cov.tri (rotU v2 l) (es v0 l) 1 1 := by
  unfold row3
  rw [pay33_eq, sq0_apply, sq1_apply, sq2_apply, R10_apply, R11_apply, R12_apply]
  rfl
theorem row4_apply : row4 (F := Ideal) v0 v2 (ix2 (0 : Fin 1) l) = Cov.tri (rotU v2 l) (es v0 l) 1 2 := by
  unfold row4
  rw [pay34_eq, sq0_apply, sq1_apply, sq2_apply, R10_apply, R11_apply, R12_apply, R20_apply, R21_apply, R22_apply]
  rfl
theorem row5_apply : row5 (F := Ideal) v0 v2 (ix2 (0 : Fin 1) l) = Cov.tri (rotU v2 l) (es v0 l) 2 2 := by
  unfold row5
  rw [pay35_eq, sq0_apply, sq1_apply, sq2_apply, R20_apply, R21_apply, R22_apply]
  rfl

end Rows

/-! ## The output block -/

section Block
variable (x : FVec Ideal S7x80000 .f32)

/-- The value at row `r`, column `l`: entry `(triI r, triK r)` of column `l`'s covariance. -/
def entry (r : Fin 6) (l : Fin 80000) : EReal :=
  Cov.tri (Cov.rotA (Cov.unit (quatOf x l) 0) (Cov.unit (quatOf x l) 1) (Cov.unit (quatOf x l) 2) (Cov.unit (quatOf x l) 3))
    (fun j => Ideal.exp (scaleOf x l j)) (triI r) (triK r)

/-- The same as a function of the block's index. -/
def blockFn : S6x80000.Idx → EReal := fun j => entry x ⟨(j 0).val, idx2_lt0 j⟩ ⟨(j 1).val, idx2_lt1 j⟩

/-- Column `l` of the two loads is column `l` of the block's rows 3–6 and 0–2. -/
theorem qcol_ld (l : Fin 80000) : qcol (View.ld (Val := Elt Ideal) (e' := .f32) x rQuat) l = quatOf x l :=
  funext fun k => ld_quat x k l
theorem scol_ld (l : Fin 80000) : scol (View.ld (Val := Elt Ideal) (e' := .f32) x rScale) l = scaleOf x l :=
  funext fun j => ld_scale x j l

/-- The entry over the two loads. -/
theorem entry_eq (r : Fin 6) (l : Fin 80000) :
    Cov.tri (rotU (View.ld (Val := Elt Ideal) (e' := .f32) x rQuat) l) (es (View.ld (Val := Elt Ideal) (e' := .f32) x rScale) l) (triI r) (triK r)
      = entry x r l := by
  unfold entry
  rw [← qcol_ld, ← scol_ld]

/-- A stored row whose column `l` is `entry x ⟨o, _⟩ l`, placed at row `o`, is the block of `blockFn x` there. -/
theorem piece_block (o : Nat) (ho : o < 6) (inb : ∀ a, (![o, 0] : Fin 2 → Nat) a + S1x80000.size a ≤ S6x80000.size a)
    (w : FVec Ideal S1x80000 .f32) (hw : ∀ l : Fin 80000, w (ix2 (0 : Fin 1) l) = entry x ⟨o, ho⟩ l)
    (y : S1x80000.Idx) : w y = blockFn x ((Rect.unit (s := S6x80000) ![o, 0] S1x80000.size inb).emb y) := by
  obtain ⟨a, l, rfl⟩ : ∃ (a : Fin 1) (l : Fin 80000), y = ix2 a l := ⟨y 0, y 1, eq_ix2 y⟩
  obtain rfl : a = 0 := Subsingleton.elim _ _
  rw [hw]
  unfold blockFn
  refine congrArg₂ (entry x) (Fin.ext ?_) (Fin.ext ?_)
  · show o = o + 1 * 0
    omega
  · show l.val = 0 + 1 * l.val
    omega

theorem pieces_block : ∀ p ∈ pieces (F := Ideal) x, ∀ y : p.1.shape.Idx, p.2 y = blockFn x (p.1.emb y) := by
  intro p hp
  simp only [pieces, List.mem_cons, List.not_mem_nil, or_false] at hp
  rcases hp with rfl | rfl | rfl | rfl | rfl | rfl
  · exact piece_block x 5 (by omega) inb_S6x80000_S1x80000_5_0 _ fun l => (row5_apply _ _ l).trans (entry_eq x 5 l)
  · exact piece_block x 4 (by omega) inb_S6x80000_S1x80000_4_0 _ fun l => (row4_apply _ _ l).trans (entry_eq x 4 l)
  · exact piece_block x 3 (by omega) inb_S6x80000_S1x80000_3_0 _ fun l => (row3_apply _ _ l).trans (entry_eq x 3 l)
  · exact piece_block x 2 (by omega) inb_S6x80000_S1x80000_2_0 _ fun l => (row2_apply _ _ l).trans (entry_eq x 2 l)
  · exact piece_block x 1 (by omega) inb_S6x80000_S1x80000_1_0 _ fun l => (row1_apply _ _ l).trans (entry_eq x 1 l)
  · exact piece_block x 0 (by omega) inb_S6x80000_S1x80000_0_0 _ fun l => (row0_apply _ _ l).trans (entry_eq x 0 l)

end Block

theorem blockOut_apply (x : FVec Ideal S7x80000 .f32) (r : Fin 6) (l : Fin 80000) :
    blockOut (F := Ideal) x (ix2 (n0 := 6) (n1 := 80000) r l)
      = Cert.Cov.tri (Cert.Cov.rotA (Cert.Cov.unit (quatOf x l) 0) (Cert.Cov.unit (quatOf x l) 1) (Cert.Cov.unit (quatOf x l) 2) (Cert.Cov.unit (quatOf x l) 3))
          (fun j => Ideal.exp (scaleOf x l j)) (triI r) (triK r) :=
  View.canon_apply_of_pieces (Val := Elt Ideal) (e := .f32) (blockFn x) (pieces (F := Ideal) x) (pieces_block x) (ix2 r l)
    (rows_cover (F := Ideal) _ _ _ _ _ _ (ix2 r l))

end Cert.KernelIdeal.Point

end
-- ==== Proof.KIValue.lean ====
/-
  The idealized kernel's result as one function of its two argument arrays.

  Put together: the program's result is the re-laying of the region's result array; that array is `regionOut` of the
  region's input array; the input array is the two argument arrays joined and transposed. Reading the three at an
  index (n, a, b): the value is a point's upper-triangle entry at row `rowOf a b`, computed from point n's three raw
  scales and four raw quaternion components — which is entry (a, b) of the symmetric matrix filled from its upper
  triangle, `Cov.arrA`.
-/
import proofs.«159295_j21534966022500_2_alg».proof.Proof.KIArray
import proofs.«159295_j21534966022500_2_alg».proof.Proof.KITail
import proofs.«159295_j21534966022500_2_alg».proof.Proof.KIPre
import proofs.«159295_j21534966022500_2_alg».proof.Proof.KIPoint
import proofs.«159295_j21534966022500_2_alg».proof.Proof.CovSpec

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- What the body's output block holds at (row, column): a point's upper-triangle entry from its seven channels. -/
theorem block_fact : BlockFact := fun x r l =>
  (Cert.KernelIdeal.Point.blockOut_apply x r l).trans rfl

variable (m : (ℓ : Loc nD τ sig) → Buf (Elt Ideal) ℓ) (ρ : Dev nD → PrngReg)

/-- A point's upper-triangle entry at row `rowOf a b` is entry (a, b) of the matrix filled from the triangle. -/
theorem tri_rowOf (R : Fin 3 → Fin 3 → EReal) (e : Fin 3 → EReal) (a b : Fin 3) :
    Cert.Cov.tri R e (upI (rowOf a b)) (upK (rowOf a b)) = Cert.Cov.covA R e a b := by
  fin_cases a <;> fin_cases b <;> rfl

/-- The program's result, after the later host lines, is `Cov.arrA` of the two argument arrays. -/
theorem result_eq (c : Dev nD) :
    Pipeline.afterTail₀ cfgs (dats m) 0 (V0 m) [hostOps1] c main_v26
      = Cert.Cov.arrA (m ((c : Thread nD τ).loc main_arg0)) (m ((c : Thread nD τ).loc main_arg1)) := by
  rw [tail_eq, region_array m block_fact c, V_input]
  generalize m ((c : Thread nD τ).loc main_arg0) = a0
  generalize m ((c : Thread nD τ).loc main_arg1) = a1
  funext i
  obtain ⟨n, a, b, rfl⟩ : ∃ (n : Fin 8000000) (a b : Fin 3), i = ix3 n a b := ⟨i 0, i 1, i 2, eq_ix3 i⟩
  rw [relay_apply]
  unfold regionOut colFun Cert.Cov.arrA Cert.Cov.pointA
  simp only [joined_scale, joined_quat]
  exact tri_rowOf _ _ a b

/-- @main of the idealized kernel runs to its end; its result is `Cov.arrA` of the argument arrays, which end as launched. -/
theorem run_value : θ_run defs (onTc (τ := τ) (main (F := Ideal))) ⟨m, fun _ => 0, ρ⟩ (fun r => ∀ c : Dev nD,
      r.2.mem ((c.tc : Thread nD τ).loc main_v26) = Cert.Cov.arrA (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v26 (Pipeline.mem_restRefs_of main_v26 (by decide) (by decide))).trans (result_eq m c),
     ((h c).2 main_arg0 (Pipeline.mem_restRefs_of main_arg0 (by decide) (by decide))).trans (W_arg0 m (dats m) c),
     ((h c).2 main_arg1 (Pipeline.mem_restRefs_of main_arg1 (by decide) (by decide))).trans (W_arg1 m (dats m) c)⟩) (run_main m ρ)

end Cert.KernelIdeal.Hand

end
-- ==== Proof.RefValue.lean ====
/-
  The reference program's output, read element by element, is the covariance of the scaled rotation in its second
  spelling (`Cert.Cov.arrB`).

  Row `n` of the second argument is a raw quaternion `q`. The program divides it by its clipped length
  `max ε (√(0 + ∑ q·q))`, which is `Cov.len q` because `max` commutes and the sum starts from zero; so the four columns of
  the quotient are the unit quaternion's components. Each of nine flat arrays then holds one entry of the rotation
  matrix, spelt `(2·x)·y`; laid side by side and regrouped three by three they are `Cov.rotB` of the unit quaternion at
  `(n, a, b)`, because `((3n + a)·3 + b) / 9 = n` and `((3n + a)·3 + b) % 9 = 3a + b`. The scale `exp s` is repeated along
  the middle axis, the product is `R a j · e j`, and the last contraction sums `(R a j · e j)·(R b j · e j)` over `j`.
-/
import proofs.«159295_j21534966022500_2_alg».proof.Proof.Gen.ReferenceIdeal.Read
import proofs.«159295_j21534966022500_2_alg».proof.Proof.CovSpec
import proofs.«159295_j21534966022500_2_alg».proof.Proof.LibConcatCols

noncomputable section

open scoped BigOperators

namespace Cert.ReferenceIdeal.RefValue

open Cert.ReferenceIdeal Cert.ReferenceIdeal.Read Idealize.ShloMosaic Idealize.ShloMosaic.ValueIdx

/-- The raw quaternion in row `n`. -/
abbrev quat (x1 : (⟨S8000000x4, .f32⟩ : BufTy).Contents (Elt Ideal)) (n : Fin 8000000) : Fin 4 → EReal :=
  fun k => x1 (ix2 n k)

/-! ## The unit quaternion -/

/-- The quotient's element at row `n`, column `k` is the unit quaternion's component `k`. -/
theorem unit_at (x1 : (⟨S8000000x4, .f32⟩ : BufTy).Contents (Elt Ideal)) (n : Fin 8000000) (k : Fin 4) :
    val_main_v4 (F := Ideal) x1 (ix2 n k) = Cov.unit (quat x1 n) k := by
  have e : ∀ k' : Fin 4, idx_main_call0_v1 (idx_main_call0_v2 (idx_main_v3 (ix2 n k))) k' = ix2 n k' := fun k' =>
    funext fun a => Fin.ext (by match a with | ⟨0, _⟩ => rfl | ⟨1, _⟩ => rfl)
  rw [val_main_v4_apply, val_main_v3_apply, val_main_v2_apply, val_main_call1_v1_apply, val_main_call1_v0_apply,
    val_main_cst_apply, val_main_v1_apply, val_main_call0_v2_apply, val_main_call0_v1_apply, val_main_call0_cst_apply]
  simp only [val_main_call0_v0_apply, e, Ideal.mulf_def, Ideal.hostDivf_def, Ideal.hostUnary_sqrt_def, Ideal.maximumf_def,
    Ideal.ofBits_def, Ideal.ofBits_zero_f32, zero_add]
  unfold Cov.unit Cov.len
  rw [max_comm]

/-- The four flat arrays of components: component `k` at row `n`. -/
theorem comp_w (x1 : (⟨S8000000x4, .f32⟩ : BufTy).Contents (Elt Ideal)) (n : Fin 8000000) : val_main_v6 (F := Ideal) x1 (ix1 n) = Cov.unit (quat x1 n) 0 := by
  have e : idx_main_v5 (idx_main_v6 (ix1 n)) = ix2 n (0 : Fin 4) :=
    funext fun a => Fin.ext (by match a with | ⟨0, _⟩ => exact Nat.div_one _ | ⟨1, _⟩ => rfl)
  rw [val_main_v6_apply, val_main_v5_apply, e, unit_at]
theorem comp_x (x1 : (⟨S8000000x4, .f32⟩ : BufTy).Contents (Elt Ideal)) (n : Fin 8000000) : val_main_v8 (F := Ideal) x1 (ix1 n) = Cov.unit (quat x1 n) 1 := by
  have e : idx_main_v7 (idx_main_v8 (ix1 n)) = ix2 n (1 : Fin 4) :=
    funext fun a => Fin.ext (by match a with | ⟨0, _⟩ => exact Nat.div_one _ | ⟨1, _⟩ => rfl)
  rw [val_main_v8_apply, val_main_v7_apply, e, unit_at]
theorem comp_y (x1 : (⟨S8000000x4, .f32⟩ : BufTy).Contents (Elt Ideal)) (n : Fin 8000000) : val_main_v10 (F := Ideal) x1 (ix1 n) = Cov.unit (quat x1 n) 2 := by
  have e : idx_main_v9 (idx_main_v10 (ix1 n)) = ix2 n (2 : Fin 4) :=
    funext fun a => Fin.ext (by match a with | ⟨0, _⟩ => exact Nat.div_one _ | ⟨1, _⟩ => rfl)
  rw [val_main_v10_apply, val_main_v9_apply, e, unit_at]
theorem comp_z (x1 : (⟨S8000000x4, .f32⟩ : BufTy).Contents (Elt Ideal)) (n : Fin 8000000) : val_main_v12 (F := Ideal) x1 (ix1 n) = Cov.unit (quat x1 n) 3 := by
  have e : idx_main_v11 (idx_main_v12 (ix1 n)) = ix2 n (3 : Fin 4) :=
    funext fun a => Fin.ext (by match a with | ⟨0, _⟩ => exact Nat.div_one _ | ⟨1, _⟩ => rfl)
  rw [val_main_v12_apply, val_main_v11_apply, e, unit_at]

/-! ## The nine entries of the rotation matrix, one flat array each, then one column each -/

/-- The rotation matrix of the unit quaternion in row `n`. -/
abbrev rot (x1 : (⟨S8000000x4, .f32⟩ : BufTy).Contents (Elt Ideal)) (n : Fin 8000000) : Fin 3 → Fin 3 → EReal :=
  Cov.rotB (Cov.unit (quat x1 n) 0) (Cov.unit (quat x1 n) 1) (Cov.unit (quat x1 n) 2) (Cov.unit (quat x1 n) 3)

/-- Column 0 at row `n` is the entry (0, 0). -/
theorem col0 (x1 : (⟨S8000000x4, .f32⟩ : BufTy).Contents (Elt Ideal)) (n : Fin 8000000) :
    val_main_v82 (F := Ideal) x1 (ix2 n (0 : Fin 1)) = rot x1 n 0 0 := by
  have e : idx_main_v82 (ix2 n (0 : Fin 1)) = ix1 n := funext fun a => Fin.ext (by match a with | ⟨0, _⟩ => rfl)
  rw [val_main_v82_apply, e,
    val_main_v21_apply, val_main_v17_apply, val_main_v20_apply, val_main_v16_apply, val_main_v15_apply,
    val_main_v19_apply, val_main_cst_1_apply, val_main_v14_apply, val_main_v18_apply, val_main_v13_apply,
    val_main_cst_2_apply, val_main_cst_0_apply, comp_z, comp_y]
  simp only [Ideal.mulf_def, Ideal.subf_def, Ideal.ofBits_def]
  rfl

/-- Column 1 at row `n` is the entry (0, 1). -/
theorem col1 (x1 : (⟨S8000000x4, .f32⟩ : BufTy).Contents (Elt Ideal)) (n : Fin 8000000) :
    val_main_v83 (F := Ideal) x1 (ix2 n (0 : Fin 1)) = rot x1 n 0 1 := by
  have e : idx_main_v83 (ix2 n (0 : Fin 1)) = ix1 n := funext fun a => Fin.ext (by match a with | ⟨0, _⟩ => rfl)
  rw [val_main_v83_apply, e,
    val_main_v28_apply, val_main_v24_apply, val_main_v27_apply, val_main_v23_apply, val_main_v26_apply,
    val_main_v22_apply, val_main_v25_apply, val_main_cst_3_apply, val_main_cst_4_apply, comp_y, comp_z, comp_x, comp_w]
  simp only [Ideal.mulf_def, Ideal.subf_def, Ideal.ofBits_def]
  rfl

/-- Column 2 at row `n` is the entry (0, 2). -/
theorem col2 (x1 : (⟨S8000000x4, .f32⟩ : BufTy).Contents (Elt Ideal)) (n : Fin 8000000) :
    val_main_v84 (F := Ideal) x1 (ix2 n (0 : Fin 1)) = rot x1 n 0 2 := by
  have e : idx_main_v84 (ix2 n (0 : Fin 1)) = ix1 n := funext fun a => Fin.ext (by match a with | ⟨0, _⟩ => rfl)
  rw [val_main_v84_apply, e,
    val_main_v35_apply, val_main_v31_apply, val_main_v34_apply, val_main_v30_apply, val_main_v33_apply,
    val_main_v29_apply, val_main_v32_apply, val_main_cst_5_apply, val_main_cst_6_apply, comp_z, comp_y, comp_x, comp_w]
  simp only [Ideal.mulf_def, Ideal.addf_def, Ideal.ofBits_def]
  rfl

/-- Column 3 at row `n` is the entry (1, 0). -/
theorem col3 (x1 : (⟨S8000000x4, .f32⟩ : BufTy).Contents (Elt Ideal)) (n : Fin 8000000) :
    val_main_v85 (F := Ideal) x1 (ix2 n (0 : Fin 1)) = rot x1 n 1 0 := by
  have e : idx_main_v85 (ix2 n (0 : Fin 1)) = ix1 n := funext fun a => Fin.ext (by match a with | ⟨0, _⟩ => rfl)
  rw [val_main_v85_apply, e,
    val_main_v42_apply, val_main_v38_apply, val_main_v41_apply, val_main_v37_apply, val_main_v40_apply,
    val_main_v36_apply, val_main_v39_apply, val_main_cst_7_apply, val_main_cst_8_apply, comp_y, comp_z, comp_x, comp_w]
  simp only [Ideal.mulf_def, Ideal.addf_def, Ideal.ofBits_def]
  rfl

/-- Column 4 at row `n` is the entry (1, 1). -/
theorem col4 (x1 : (⟨S8000000x4, .f32⟩ : BufTy).Contents (Elt Ideal)) (n : Fin 8000000) :
    val_main_v86 (F := Ideal) x1 (ix2 n (0 : Fin 1)) = rot x1 n 1 1 := by
  have e : idx_main_v86 (ix2 n (0 : Fin 1)) = ix1 n := funext fun a => Fin.ext (by match a with | ⟨0, _⟩ => rfl)
  rw [val_main_v86_apply, e,
    val_main_v51_apply, val_main_v47_apply, val_main_v50_apply, val_main_v46_apply, val_main_v45_apply,
    val_main_v49_apply, val_main_cst_10_apply, val_main_v44_apply, val_main_v48_apply, val_main_v43_apply,
    val_main_cst_11_apply, val_main_cst_9_apply, comp_z, comp_x]
  simp only [Ideal.mulf_def, Ideal.subf_def, Ideal.ofBits_def]
  rfl

/-- Column 5 at row `n` is the entry (1, 2). -/
theorem col5 (x1 : (⟨S8000000x4, .f32⟩ : BufTy).Contents (Elt Ideal)) (n : Fin 8000000) :
    val_main_v87 (F := Ideal) x1 (ix2 n (0 : Fin 1)) = rot x1 n 1 2 := by
  have e : idx_main_v87 (ix2 n (0 : Fin 1)) = ix1 n := funext fun a => Fin.ext (by match a with | ⟨0, _⟩ => rfl)
  rw [val_main_v87_apply, e,
    val_main_v58_apply, val_main_v54_apply, val_main_v57_apply, val_main_v53_apply, val_main_v56_apply,
    val_main_v52_apply, val_main_v55_apply, val_main_cst_12_apply, val_main_cst_13_apply, comp_z, comp_x, comp_y,
    comp_w]
  simp only [Ideal.mulf_def, Ideal.subf_def, Ideal.ofBits_def]
  rfl

/-- Column 6 at row `n` is the entry (2, 0). -/
theorem col6 (x1 : (⟨S8000000x4, .f32⟩ : BufTy).Contents (Elt Ideal)) (n : Fin 8000000) :
    val_main_v88 (F := Ideal) x1 (ix2 n (0 : Fin 1)) = rot x1 n 2 0 := by
  have e : idx_main_v88 (ix2 n (0 : Fin 1)) = ix1 n := funext fun a => Fin.ext (by match a with | ⟨0, _⟩ => rfl)
  rw [val_main_v88_apply, e,
    val_main_v65_apply, val_main_v61_apply, val_main_v64_apply, val_main_v60_apply, val_main_v63_apply,
    val_main_v59_apply, val_main_v62_apply, val_main_cst_14_apply, val_main_cst_15_apply, comp_z, comp_y, comp_x,
    comp_w]
  simp only [Ideal.mulf_def, Ideal.subf_def, Ideal.ofBits_def]
  rfl

/-- Column 7 at row `n` is the entry (2, 1). -/
theorem col7 (x1 : (⟨S8000000x4, .f32⟩ : BufTy).Contents (Elt Ideal)) (n : Fin 8000000) :
    val_main_v89 (F := Ideal) x1 (ix2 n (0 : Fin 1)) = rot x1 n 2 1 := by
  have e : idx_main_v89 (ix2 n (0 : Fin 1)) = ix1 n := funext fun a => Fin.ext (by match a with | ⟨0, _⟩ => rfl)
  rw [val_main_v89_apply, e,
    val_main_v72_apply, val_main_v68_apply, val_main_v71_apply, val_main_v67_apply, val_main_v70_apply,
    val_main_v66_apply, val_main_v69_apply, val_main_cst_16_apply, val_main_cst_17_apply, comp_z, comp_x, comp_y,
    comp_w]
  simp only [Ideal.mulf_def, Ideal.addf_def, Ideal.ofBits_def]
  rfl

/-- Column 8 at row `n` is the entry (2, 2). -/
theorem col8 (x1 : (⟨S8000000x4, .f32⟩ : BufTy).Contents (Elt Ideal)) (n : Fin 8000000) :
    val_main_v90 (F := Ideal) x1 (ix2 n (0 : Fin 1)) = rot x1 n 2 2 := by
  have e : idx_main_v90 (ix2 n (0 : Fin 1)) = ix1 n := funext fun a => Fin.ext (by match a with | ⟨0, _⟩ => rfl)
  rw [val_main_v90_apply, e,
    val_main_v81_apply, val_main_v77_apply, val_main_v80_apply, val_main_v76_apply, val_main_v75_apply,
    val_main_v79_apply, val_main_cst_19_apply, val_main_v74_apply, val_main_v78_apply, val_main_v73_apply,
    val_main_cst_20_apply, val_main_cst_18_apply, comp_y, comp_x]
  simp only [Ideal.mulf_def, Ideal.subf_def, Ideal.ofBits_def]
  rfl

/-! ## The nine columns side by side, regrouped three by three -/

/-- Flat position `(3n + 0)·3 + 0` is row `n`, column 0 of nine: the entry (0, 0). -/
theorem entry00 (x1 : (⟨S8000000x4, .f32⟩ : BufTy).Contents (Elt Ideal)) (n : Fin 8000000) :
    val_main_v92 (F := Ideal) x1 (ix3 n (0 : Fin 3) (0 : Fin 3)) = rot x1 n 0 0 := by
  have e : idx_main_v92 (ix3 n (0 : Fin 3) (0 : Fin 3)) = ix2 n (0 : Fin 9) := funext fun d => Fin.ext (by
    match d with
    | ⟨0, _⟩ => show ((n.val * 3 + 0) * 3 + 0) / 9 = n.val; omega
    | ⟨1, _⟩ => show ((n.val * 3 + 0) * 3 + 0) % 9 = 0; omega)
  rw [val_main_v92_apply, e]
  unfold val_main_v91
  exact (Cert.LibConcatCols.concat9_col0 _ _ _ _ _ _ _ _ _ _ n).trans (col0 x1 n)

/-- Flat position `(3n + 0)·3 + 1` is row `n`, column 1 of nine: the entry (0, 1). -/
theorem entry01 (x1 : (⟨S8000000x4, .f32⟩ : BufTy).Contents (Elt Ideal)) (n : Fin 8000000) :
    val_main_v92 (F := Ideal) x1 (ix3 n (0 : Fin 3) (1 : Fin 3)) = rot x1 n 0 1 := by
  have e : idx_main_v92 (ix3 n (0 : Fin 3) (1 : Fin 3)) = ix2 n (1 : Fin 9) := funext fun d => Fin.ext (by
    match d with
    | ⟨0, _⟩ => show ((n.val * 3 + 0) * 3 + 1) / 9 = n.val; omega
    | ⟨1, _⟩ => show ((n.val * 3 + 0) * 3 + 1) % 9 = 1; omega)
  rw [val_main_v92_apply, e]
  unfold val_main_v91
  exact (Cert.LibConcatCols.concat9_col1 _ _ _ _ _ _ _ _ _ _ n).trans (col1 x1 n)

/-- Flat position `(3n + 0)·3 + 2` is row `n`, column 2 of nine: the entry (0, 2). -/
theorem entry02 (x1 : (⟨S8000000x4, .f32⟩ : BufTy).Contents (Elt Ideal)) (n : Fin 8000000) :
    val_main_v92 (F := Ideal) x1 (ix3 n (0 : Fin 3) (2 : Fin 3)) = rot x1 n 0 2 := by
  have e : idx_main_v92 (ix3 n (0 : Fin 3) (2 : Fin 3)) = ix2 n (2 : Fin 9) := funext fun d => Fin.ext (by
    match d with
    | ⟨0, _⟩ => show ((n.val * 3 + 0) * 3 + 2) / 9 = n.val; omega
    | ⟨1, _⟩ => show ((n.val * 3 + 0) * 3 + 2) % 9 = 2; omega)
  rw [val_main_v92_apply, e]
  unfold val_main_v91
  exact (Cert.LibConcatCols.concat9_col2 _ _ _ _ _ _ _ _ _ _ n).trans (col2 x1 n)

/-- Flat position `(3n + 1)·3 + 0` is row `n`, column 3 of nine: the entry (1, 0). -/
theorem entry10 (x1 : (⟨S8000000x4, .f32⟩ : BufTy).Contents (Elt Ideal)) (n : Fin 8000000) :
    val_main_v92 (F := Ideal) x1 (ix3 n (1 : Fin 3) (0 : Fin 3)) = rot x1 n 1 0 := by
  have e : idx_main_v92 (ix3 n (1 : Fin 3) (0 : Fin 3)) = ix2 n (3 : Fin 9) := funext fun d => Fin.ext (by
    match d with
    | ⟨0, _⟩ => show ((n.val * 3 + 1) * 3 + 0) / 9 = n.val; omega
    | ⟨1, _⟩ => show ((n.val * 3 + 1) * 3 + 0) % 9 = 3; omega)
  rw [val_main_v92_apply, e]
  unfold val_main_v91
  exact (Cert.LibConcatCols.concat9_col3 _ _ _ _ _ _ _ _ _ _ n).trans (col3 x1 n)

/-- Flat position `(3n + 1)·3 + 1` is row `n`, column 4 of nine: the entry (1, 1). -/
theorem entry11 (x1 : (⟨S8000000x4, .f32⟩ : BufTy).Contents (Elt Ideal)) (n : Fin 8000000) :
    val_main_v92 (F := Ideal) x1 (ix3 n (1 : Fin 3) (1 : Fin 3)) = rot x1 n 1 1 := by
  have e : idx_main_v92 (ix3 n (1 : Fin 3) (1 : Fin 3)) = ix2 n (4 : Fin 9) := funext fun d => Fin.ext (by
    match d with
    | ⟨0, _⟩ => show ((n.val * 3 + 1) * 3 + 1) / 9 = n.val; omega
    | ⟨1, _⟩ => show ((n.val * 3 + 1) * 3 + 1) % 9 = 4; omega)
  rw [val_main_v92_apply, e]
  unfold val_main_v91
  exact (Cert.LibConcatCols.concat9_col4 _ _ _ _ _ _ _ _ _ _ n).trans (col4 x1 n)

/-- Flat position `(3n + 1)·3 + 2` is row `n`, column 5 of nine: the entry (1, 2). -/
theorem entry12 (x1 : (⟨S8000000x4, .f32⟩ : BufTy).Contents (Elt Ideal)) (n : Fin 8000000) :
    val_main_v92 (F := Ideal) x1 (ix3 n (1 : Fin 3) (2 : Fin 3)) = rot x1 n 1 2 := by
  have e : idx_main_v92 (ix3 n (1 : Fin 3) (2 : Fin 3)) = ix2 n (5 : Fin 9) := funext fun d => Fin.ext (by
    match d with
    | ⟨0, _⟩ => show ((n.val * 3 + 1) * 3 + 2) / 9 = n.val; omega
    | ⟨1, _⟩ => show ((n.val * 3 + 1) * 3 + 2) % 9 = 5; omega)
  rw [val_main_v92_apply, e]
  unfold val_main_v91
  exact (Cert.LibConcatCols.concat9_col5 _ _ _ _ _ _ _ _ _ _ n).trans (col5 x1 n)

/-- Flat position `(3n + 2)·3 + 0` is row `n`, column 6 of nine: the entry (2, 0). -/
theorem entry20 (x1 : (⟨S8000000x4, .f32⟩ : BufTy).Contents (Elt Ideal)) (n : Fin 8000000) :
    val_main_v92 (F := Ideal) x1 (ix3 n (2 : Fin 3) (0 : Fin 3)) = rot x1 n 2 0 := by
  have e : idx_main_v92 (ix3 n (2 : Fin 3) (0 : Fin 3)) = ix2 n (6 : Fin 9) := funext fun d => Fin.ext (by
    match d with
    | ⟨0, _⟩ => show ((n.val * 3 + 2) * 3 + 0) / 9 = n.val; omega
    | ⟨1, _⟩ => show ((n.val * 3 + 2) * 3 + 0) % 9 = 6; omega)
  rw [val_main_v92_apply, e]
  unfold val_main_v91
  exact (Cert.LibConcatCols.concat9_col6 _ _ _ _ _ _ _ _ _ _ n).trans (col6 x1 n)

/-- Flat position `(3n + 2)·3 + 1` is row `n`, column 7 of nine: the entry (2, 1). -/
theorem entry21 (x1 : (⟨S8000000x4, .f32⟩ : BufTy).Contents (Elt Ideal)) (n : Fin 8000000) :
    val_main_v92 (F := Ideal) x1 (ix3 n (2 : Fin 3) (1 : Fin 3)) = rot x1 n 2 1 := by
  have e : idx_main_v92 (ix3 n (2 : Fin 3) (1 : Fin 3)) = ix2 n (7 : Fin 9) := funext fun d => Fin.ext (by
    match d with
    | ⟨0, _⟩ => show ((n.val * 3 + 2) * 3 + 1) / 9 = n.val; omega
    | ⟨1, _⟩ => show ((n.val * 3 + 2) * 3 + 1) % 9 = 7; omega)
  rw [val_main_v92_apply, e]
  unfold val_main_v91
  exact (Cert.LibConcatCols.concat9_col7 _ _ _ _ _ _ _ _ _ _ n).trans (col7 x1 n)

/-- Flat position `(3n + 2)·3 + 2` is row `n`, column 8 of nine: the entry (2, 2). -/
theorem entry22 (x1 : (⟨S8000000x4, .f32⟩ : BufTy).Contents (Elt Ideal)) (n : Fin 8000000) :
    val_main_v92 (F := Ideal) x1 (ix3 n (2 : Fin 3) (2 : Fin 3)) = rot x1 n 2 2 := by
  have e : idx_main_v92 (ix3 n (2 : Fin 3) (2 : Fin 3)) = ix2 n (8 : Fin 9) := funext fun d => Fin.ext (by
    match d with
    | ⟨0, _⟩ => show ((n.val * 3 + 2) * 3 + 2) / 9 = n.val; omega
    | ⟨1, _⟩ => show ((n.val * 3 + 2) * 3 + 2) % 9 = 8; omega)
  rw [val_main_v92_apply, e]
  unfold val_main_v91
  exact (Cert.LibConcatCols.concat9_col8 _ _ _ _ _ _ _ _ _ _ n).trans (col8 x1 n)

/-- The regrouped array at `(n, a, b)` is the rotation matrix's entry `(a, b)`. -/
theorem rot_at (x1 : (⟨S8000000x4, .f32⟩ : BufTy).Contents (Elt Ideal)) (n : Fin 8000000) (a b : Fin 3) :
    val_main_v92 (F := Ideal) x1 (ix3 n a b) = rot x1 n a b := by
  fin_cases a <;> fin_cases b
  exacts [entry00 x1 n, entry01 x1 n, entry02 x1 n, entry10 x1 n, entry11 x1 n, entry12 x1 n, entry20 x1 n, entry21 x1 n,
    entry22 x1 n]
/-! ## The scale, the scaled columns and the contraction -/

/-- The scale repeated along the middle axis: at `(n, a, j)` it is `exp` of the raw scale `j` in row `n`. -/
theorem scale_at (x0 : (⟨S8000000x3, .f32⟩ : BufTy).Contents (Elt Ideal)) (n : Fin 8000000) (a j : Fin 3) :
    val_main_v94 (F := Ideal) x0 (ix3 n a j) = Ideal.exp (x0 (ix2 n j)) := by
  have e : idx_main_v93 (idx_main_v94 (ix3 n a j)) = ix2 n j :=
    funext fun d => Fin.ext (by match d with | ⟨0, _⟩ => rfl | ⟨1, _⟩ => rfl)
  rw [val_main_v94_apply, val_main_v93_apply, val_main_v0_apply, e, Ideal.hostUnary_exp_def]

/-- The scaled rotation at `(n, a, j)`. -/
theorem scaled_at (x0 : (⟨S8000000x3, .f32⟩ : BufTy).Contents (Elt Ideal)) (x1 : (⟨S8000000x4, .f32⟩ : BufTy).Contents (Elt Ideal)) (n : Fin 8000000) (a j : Fin 3) :
    val_main_v95 (F := Ideal) x0 x1 (ix3 n a j) = rot x1 n a j * Ideal.exp (x0 (ix2 n j)) := by
  rw [val_main_v95_apply, rot_at, scale_at, Ideal.mulf_def]

/-- **The reference's output is the covariance in its second spelling.** -/
theorem ref_is_arrB (x0 : (⟨S8000000x3, .f32⟩ : BufTy).Contents (Elt Ideal)) (x1 : (⟨S8000000x4, .f32⟩ : BufTy).Contents (Elt Ideal)) :
    Cert.ReferenceIdeal.Read.val_main_v96 (F := Ideal) x0 x1 = Cert.Cov.arrB x0 x1 := by
  funext i
  obtain ⟨n, a, b, rfl⟩ : ∃ (n : Fin 8000000) (a b : Fin 3), i = ix3 n a b := ⟨i 0, i 1, i 2, eq_ix3 i⟩
  have el : ∀ j : Fin 3, lidx_main_v96 (ix3 n a b) j = ix3 n a j := fun j =>
    funext fun d => Fin.ext (by match d with | ⟨0, _⟩ => rfl | ⟨1, _⟩ => rfl | ⟨2, _⟩ => rfl)
  have er : ∀ j : Fin 3, ridx_main_v96 (ix3 n a b) j = ix3 n b j := fun j =>
    funext fun d => Fin.ext (by match d with | ⟨0, _⟩ => rfl | ⟨1, _⟩ => rfl | ⟨2, _⟩ => rfl)
  rw [val_main_v96_apply]
  show _ = Cov.covB (rot x1 n) (fun j => Ideal.exp (x0 (ix2 n j))) a b
  unfold Cov.covB
  refine Finset.sum_congr rfl fun j _ => ?_
  rw [el, er, scaled_at, scaled_at]

end Cert.ReferenceIdeal.RefValue

end
-- ==== Proof.lean ====
/-
  A Gaussian's covariance from its raw scale and raw rotation, eight million points at a time: the kernel against
  its reference, over the extended reals.

  Per point both programs take three raw scales s and a raw quaternion q, form e = exp s, normalise q by its length
  kept away from zero (q / max (√(Σ q²)) ε), build the rotation matrix R of the unit quaternion, and return
  (R · diag e)(R · diag e)ᵀ. The kernel lays the points along the lane axis, computes the six entries of the upper
  triangle as (R i j · R k j) · (e j · e j) summed left to right over j, and the host lines after it fill the
  symmetric 3 × 3 matrix from those six. The reference scales the columns first, R i j · e j, and contracts two copies
  over j; it also writes a rotation entry as (2·x)·y where the kernel writes 2·(x·y). The two results differ only
  by the commutativity and associativity of + and · — laws of all of EReal — so the claim needs nothing of the
  precondition.

  The frames of the two kernel programs: @main is two host lines, one pipelined region of a hundred grid points,
  and twenty-four host lines; the body at a grid point loads two rectangles of its input block and stores six rows
  that tile its output block; neither argument array is staged or written. The reference's frame is its run with the
  result dropped. No rewrite was applied in idealizing the kernel, so there is nothing to preserve.
-/
import proofs.«159295_j21534966022500_2_alg».proof.Defs
import proofs.«159295_j21534966022500_2_alg».proof.Proof.Gen.Kernel
import proofs.«159295_j21534966022500_2_alg».proof.Proof.Gen.KernelIdeal
import proofs.«159295_j21534966022500_2_alg».proof.Proof.Gen.ReferenceIdeal
import proofs.«159295_j21534966022500_2_alg».proof.Proof.Gen.ReferenceIdeal.Run
import proofs.«159295_j21534966022500_2_alg».proof.Proof.Gen.ReferenceIdeal.Read
import proofs.«159295_j21534966022500_2_alg».proof.Proof.Gen.Pre_finite_inputs
import proofs.«159295_j21534966022500_2_alg».proof.Proof.CovSpec
import proofs.«159295_j21534966022500_2_alg».proof.Proof.KFrame
import proofs.«159295_j21534966022500_2_alg».proof.Proof.KIFrame
import proofs.«159295_j21534966022500_2_alg».proof.Proof.KIValue
import proofs.«159295_j21534966022500_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to its end and leaves both argument arrays as launched. -/
theorem frame_kernel : Cert.frame_Kernel := fun m ρ _ => Cert.Kernel.Hand.frame m ρ

/-- So does the idealized kernel. -/
theorem frame_kernel_ideal : Cert.frame_KernelIdeal := fun m ρ _ => Cert.KernelIdeal.Hand.frame m ρ

/-- The reference is host operations only: its frame is its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two argument arrays, the idealized kernel ends with every point's covariance in
    the first spelling and the reference with it in the second; the two spellings are one function. -/
theorem algebraic : Cert.algebraic_KernelIdeal_ReferenceIdeal := by
  intro m ρ m' ρ' _ hagree
  refine ⟨fun c => Cert.Cov.arrA (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v96_eq, Cert.ReferenceIdeal.RefValue.ref_is_arrB, (hagree c).1, (hagree c).2]
  exact (Cert.Cov.arrA_eq_arrB _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
